-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x512 : Shape := ⟨2, ![256, 512]⟩
abbrev S1x512 : Shape := ⟨2, ![1, 512]⟩
abbrev S512x512 : Shape := ⟨2, ![512, 512]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S1x512 .f32) (main_arg5 : FVec F S512x512 .f32) (main_arg6 : FVec F S1x512 .f32) (main_v14 : IVec S_ 1) (main_v15 : FVec F S256x512 .f32) (main_v16 : FVec F S256x512 .f32) : IVec S_ 1 :=
  let main_v17 : IVec S256x512 1 := cmpf .olt main_v15 main_v16
  let main_c_5 : IVec S_ 1 := constantI S_ 1 1#1
  let main_v18 : IVec S_ 1 := (fun x v => Host.reduce IntOp.andi x v reducesTo_S256x512_S_d0_1 h_S_) main_v17 main_c_5
  let main_v19 : IVec S_ 1 := andi main_v14 main_v18
  let main_v20 : FVec F S1x512 .f32 := Host.absf main_arg4
  let main_cst_6 : FVec F S_ .f32 := constant S_ .f32 0x7F800000#32
  let main_v21 : FVec F S1x512 .f32 := broadcastInDim S1x512 ![] bcast_S_S1x512 main_cst_6
  let main_v22 : IVec S1x512 1 := cmpf .olt main_v20 main_v21
  let main_c_7 : IVec S_ 1 := constantI S_ 1 1#1
  let main_v23 : IVec S_ 1 := (fun x v => Host.reduce IntOp.andi x v reducesTo_S1x512_S_d0_1 h_S_) main_v22 main_c_7
  let main_v24 : IVec S_ 1 := andi main_v19 main_v23
  let main_v25 : FVec F S512x512 .f32 := Host.absf main_arg5
  let main_cst_8 : FVec F S_ .f32 := constant S_ .f32 0x7F800000#32
  let main_v26 : FVec F S512x512 .f32 := broadcastInDim S512x512 ![] bcast_S_S512x512 main_cst_8
  let main_v27 : IVec S512x512 1 := cmpf .olt main_v25 main_v26
  let main_c_9 : IVec S_ 1 := constantI S_ 1 1#1
  let main_v28 : IVec S_ 1 := (fun x v => Host.reduce IntOp.andi x v reducesTo_S512x512_S_d0_1 h_S_) main_v27 main_c_9
  let main_v29 : IVec S_ 1 := andi main_v24 main_v28
  let main_v30 : FVec F S1x512 .f32 := Host.absf main_arg6
  let main_cst_10 : FVec F S_ .f32 := constant S_ .f32 0x7F800000#32
  let main_v31 : FVec F S1x512 .f32 := broadcastInDim S1x512 ![] bcast_S_S1x512 main_cst_10
  let main_v32 : IVec S1x512 1 := cmpf .olt main_v30 main_v31
  let main_c_11 : IVec S_ 1 := constantI S_ 1 1#1
  let main_v33 : IVec S_ 1 := (fun x v => Host.reduce IntOp.andi x v reducesTo_S1x512_S_d0_1 h_S_) main_v32 main_c_11
  fn_part2 (F := F) main_v29 main_v33

def fn {F : FTy → Type} [FloatOps F] (main_arg0 : FVec F S4096x256 .f32) (main_arg1 : FVec F S4096x256 .f32) (main_arg2 : FVec F S4096x4096 .bf16) (main_arg3 : FVec F S256x512 .f32) (main_arg4 : FVec F S1x512 .f32) (main_arg5 : FVec F S512x512 .f32) (main_arg6 : FVec F S1x512 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x4096 .f32 := (extf .f32 · bitsLt_bf16_f32) main_arg2
  let main_v10 : FVec F S4096x4096 .f32 := Host.absf main_v9
  let main_cst_2 : FVec F S_ .f32 := constant S_ .f32 0x7F800000#32
  let main_v11 : FVec F S4096x4096 .f32 := broadcastInDim S4096x4096 ![] bcast_S_S4096x4096 main_cst_2
  let main_v12 : IVec S4096x4096 1 := cmpf .olt main_v10 main_v11
  let main_c_3 : IVec S_ 1 := constantI S_ 1 1#1
  let main_v13 : IVec S_ 1 := (fun x v => Host.reduce IntOp.andi x v reducesTo_S4096x4096_S_d0_1 h_S_) main_v12 main_c_3
  let main_v14 : IVec S_ 1 := andi main_v8 main_v13
  let main_v15 : FVec F S256x512 .f32 := Host.absf main_arg3
  let main_cst_4 : FVec F S_ .f32 := constant S_ .f32 0x7F800000#32
  let main_v16 : FVec F S256x512 .f32 := broadcastInDim S256x512 ![] bcast_S_S256x512 main_cst_4
  fn_part1 (F := F) main_arg4 main_arg5 main_arg6 main_v14 main_v15 main_v16
-- ==== Kernel.lean ====
abbrev S4096x256 : Shape := ⟨2, ![4096, 256]⟩
abbrev S4096x4096 : Shape := ⟨2, ![4096, 4096]⟩
abbrev S256x512 : Shape := ⟨2, ![256, 512]⟩
abbrev S1x512 : Shape := ⟨2, ![1, 512]⟩
abbrev S512x512 : Shape := ⟨2, ![512, 512]⟩
abbrev S4096x512 : Shape := ⟨2, ![4096, 512]⟩
abbrev S1024x4096 : Shape := ⟨2, ![1024, 4096]⟩
abbrev S1024x512 : Shape := ⟨2, ![1024, 512]⟩
abbrev S8x512 : Shape := ⟨2, ![8, 512]⟩
abbrev S1024x256 : Shape := ⟨2, ![1024, 256]⟩
abbrev S512 : Shape := ⟨1, ![512]⟩

abbrev nBuf : Space → Nat
  | .hbm => 10
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4096, .bf16⟩
  | .hbm, ⟨3, _⟩ => ⟨S256x512, .f32⟩
  | .hbm, ⟨4, _⟩ => ⟨S1x512, .f32⟩
  | .hbm, ⟨5, _⟩ => ⟨S512x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S1x512, .f32⟩
  | .local _ .vmem, ⟨0, _⟩ => ⟨S4096x256, .f32⟩
  | .local _ .vmem, ⟨1, _⟩ => ⟨S4096x256, .f32⟩
  | .local _ .vmem, ⟨2, _⟩ => ⟨S256x512, .f32⟩
  | .local _ .vmem, ⟨3, _⟩ => ⟨S1x512, .f32⟩
  | .local _ .vmem, ⟨4, _⟩ => ⟨S1024x4096, .bf16⟩
  | .local _ .vmem, ⟨5, _⟩ => ⟨S1024x4096, .bf16⟩
  | .local _ .vmem, ⟨6, _⟩ => ⟨S512x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S4096x512, .bf16⟩
  | .local _ .vmem, ⟨14, _⟩ => ⟨S8x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v27 : BitVec 1 := Scalar.cmpi .eq arg0 c3_i32
  let v28 : BitVec 32 := Scalar.extui v27
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S4096x512_S4096x256_0_0 : ∀ a, (![0, 0] : Fin 2 → Nat) a + S4096x256.size a ≤ S4096x512.size a
  shapeCasts_S4096x256_S4096x256 : S4096x256.ShapeCasts S4096x256
  packedbf16_S4096x512_S4096x256_0_0 : (Rect.unit (s := S4096x512) ![0, 0] S4096x256.size inb_S4096x512_S4096x256_0_0).PackedRows (EltTy.packing .bf16)
  inb_S4096x512_S4096x256_0_256 : ∀ a, (![0, 256] : Fin 2 → Nat) a + S4096x256.size a ≤ S4096x512.size a
  packedbf16_S4096x512_S4096x256_0_256 : (Rect.unit (s := S4096x512) ![0, 256] S4096x256.size inb_S4096x512_S4096x256_0_256).PackedRows (EltTy.packing .bf16)
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1024x4096_S1024x4096_0_0 : ∀ a, (![0, 0] : Fin 2 → Nat) a + S1024x4096.size a ≤ S1024x4096.size a
  h_S1024x4096 : 0 < S1024x4096.numel
  inb_S4096x512_S4096x512_0_0 : ∀ a, (![0, 0] : Fin 2 → Nat) a + S4096x512.size a ≤ S4096x512.size a
  h_S4096x512 : 0 < S4096x512.numel
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  slices_S1024x512_o0_0_S1024x256 : S1024x512.Slices ![0, 0] S1024x256
  broadcasts_S1x512_S1024x512 : S1x512.Broadcasts S1024x512
  slices_S1024x512_o0_256_S1024x256 : S1024x512.Slices ![0, 256] S1024x256
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  shapeCasts_S1x512_S1x512 : S1x512.ShapeCasts S1x512
  broadcasts_S1x512_S8x512 : S1x512.Broadcasts S8x512
  reduces_S8x512_S512 : S8x512.Reduces [0] S512
  inb_S512x512_S512x512_0_0 : ∀ a, (![0, 0] : Fin 2 → Nat) a + S512x512.size a ≤ S512x512.size a
  h_S512x512 : 0 < S512x512.numel
  dot_S1024x4096_S4096x512_S1024x512_1_0_0_1_n_n_wf : DotDims.WF S1024x4096 S4096x512 S1024x512 [1] [0] [0] [1] [] []
  dot_S1024x256_S256x512_S1024x512_1_0_0_1_n_n_wf : DotDims.WF S1024x256 S256x512 S1024x512 [1] [0] [0] [1] [] []
  dot_S1x512_S512x512_S1x512_1_1_0_0_n_n_wf : DotDims.WF S1x512 S512x512 S1x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S4096x4096.size a
  hwx0_4 : ∀ i : grid0.Coords, EltTy.bits .bf16 = 32 ∨ (Rect.block (s := S4096x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S4096x512.size a
  hwx0_7 : ∀ i : grid0.Coords, EltTy.bits .f32 = 32 ∨ (Rect.block (s := S4096x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S4096x512.size a
  hwx0_8 : ∀ i : grid0.Coords, EltTy.bits .f32 = 32 ∨ (Rect.block (s := S4096x512) S1024x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x512.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S256x512 : Shape := ⟨2, ![256, 512]⟩
abbrev S1x512 : Shape := ⟨2, ![1, 512]⟩
abbrev S512x512 : Shape := ⟨2, ![512, 512]⟩
abbrev S_ : Shape := ⟨0, ![]⟩
abbrev S8192x256 : Shape := ⟨2, ![8192, 256]⟩
abbrev S1x1024 : Shape := ⟨2, ![1, 1024]⟩
abbrev S4096x1024 : Shape := ⟨2, ![4096, 1024]⟩
abbrev S1024x256 : Shape := ⟨2, ![1024, 256]⟩
abbrev S1024x512 : Shape := ⟨2, ![1024, 512]⟩
abbrev S64x512 : Shape := ⟨2, ![64, 512]⟩
abbrev S512x2048 : Shape := ⟨2, ![512, 2048]⟩
abbrev S2048x1024 : Shape := ⟨2, ![2048, 1024]⟩
abbrev S512x1024 : Shape := ⟨2, ![512, 1024]⟩
abbrev S8x512 : Shape := ⟨2, ![8, 512]⟩
abbrev S512 : Shape := ⟨1, ![512]⟩
abbrev S4096x512 : Shape := ⟨2, ![4096, 512]⟩

abbrev nBuf : Space → Nat
  | .hbm => 37
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4096, .bf16⟩
  | .hbm, ⟨3, _⟩ => ⟨S256x512, .f32⟩
  | .hbm, ⟨4, _⟩ => ⟨S1x512, .f32⟩
  | .hbm, ⟨5, _⟩ => ⟨S512x512, .f32⟩
  | .hbm, ⟨6, _⟩ => ⟨S1x512, .f32⟩
  | .hbm, ⟨7, _⟩ => ⟨S_, .i32⟩
  | .hbm, ⟨8, _⟩ => ⟨S_, .f32⟩
  | .hbm, ⟨9, _⟩ => ⟨S4096x256, .f32⟩
  | .hbm, ⟨10, _⟩ => ⟨S4096x256, .bf16⟩
  | .hbm, ⟨11, _⟩ => ⟨S_, .i32⟩
  | .hbm, ⟨12, _⟩ => ⟨S_, .f32⟩
  | .hbm, ⟨13, _⟩ => ⟨S4096x256, .f32⟩
  | .hbm, ⟨14, _⟩ => ⟨S4096x256, .bf16⟩
  | .hbm, ⟨15, _⟩ => ⟨S8192x256, .bf16⟩
  | .hbm, ⟨16, _⟩ => ⟨S_, .i32⟩
  | .hbm, ⟨17, _⟩ => ⟨S_, .f32⟩
  | .hbm, ⟨18, _⟩ => ⟨S256x512, .f32⟩
  | .hbm, ⟨19, _⟩ => ⟨S256x512, .bf16⟩
  | .hbm, ⟨20, _⟩ => ⟨S_, .i32⟩
  | .hbm, ⟨21, _⟩ => ⟨S_, .f32⟩
  | .hbm, ⟨22, _⟩ => ⟨S1x512, .f32⟩
  | .hbm, ⟨23, _⟩ => ⟨S1x1024, .f32⟩
  | .hbm, ⟨24, _⟩ => ⟨S512x512, .f32⟩
  | .hbm, ⟨25, _⟩ => ⟨S_, .i32⟩
  | .hbm, ⟨26, _⟩ => ⟨S_, .f32⟩
  | .hbm, ⟨27, _⟩ => ⟨S512x512, .f32⟩
  | .hbm, ⟨28, _⟩ => ⟨S_, .i32⟩
  | .hbm, ⟨29, _⟩ => ⟨S_, .f32⟩
  | .hbm, ⟨30, _⟩ => ⟨S1x512, .f32⟩
  | .hbm, ⟨31, _⟩ => ⟨S4096x1024, .bf16⟩
  | .hbm, ⟨32, _⟩ => ⟨S4096x1024, .f32⟩
  | .hbm, ⟨33, _⟩ => ⟨S64x512, .f32⟩
  | .hbm, ⟨34, _⟩ => ⟨S1x512, .f32⟩
  | .hbm, ⟨35, _⟩ => ⟨S4096x512, .f32⟩
  | .hbm, ⟨36, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x512, .f32⟩
  | .local _ .vmem, ⟨13, _⟩ => ⟨S8x512, .f32⟩
  | .local _ .vmem, ⟨14, _⟩ => ⟨S64x512, .f32⟩
  | .local _ .vmem, ⟨15, _⟩ => ⟨S512x512, .f32⟩
  | .local _ .vmem, ⟨16, _⟩ => ⟨S1x512, .f32⟩
  | .local _ .vmem, ⟨17, _⟩ => ⟨S1x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_call3_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_call4_v0 : Ref sig .tc := ⟨.hbm, 26, rfl⟩
abbrev main_v10 : Ref sig .tc := ⟨.hbm, 27, rfl⟩
abbrev main_c_4 : Ref sig .tc := ⟨.hbm, 28, rfl⟩
abbrev main_call5_v0 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  pads_S4096x256_S4096x256_000_000 : S4096x256.Pads (![0, 0] : Fin 2 → Nat) ![0, 0] ![0, 0] S4096x256
  h_S_ : 0 < S_.numel
  bitsLt_bf16_f32 : FTy.bits .bf16 < FTy.bits .f32
  concatenates_S4096x256_S4096x256_S8192x256_d0 : Shape.Concatenates [S4096x256, S4096x256] S8192x256 0
  pads_S256x512_S256x512_000_000 : S256x512.Pads (![0, 0] : Fin 2 → Nat) ![0, 0] ![0, 0] S256x512
  pads_S1x512_S1x512_000_000 : S1x512.Pads (![0, 0] : Fin 2 → Nat) ![0, 0] ![0, 0] S1x512
  concatenates_S1x512_S1x512_S1x1024_d1 : Shape.Concatenates [S1x512, S1x512] S1x1024 1
  transposes_S512x512_S512x512_1_0 : S512x512.Transposes [1, 0] S512x512
  pads_S512x512_S512x512_000_000 : S512x512.Pads (![0, 0] : Fin 2 → Nat) ![0, 0] ![0, 0] S512x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  iota_S512x1024_d0_w32 : S512x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S512x1024_o0_0_S512x512 : S512x1024.Slices ![0, 0] S512x512
  reduces_S512x512_S512 : S512x512.Reduces [0] S512
  shapeCasts_S512_S1x512 : S512.ShapeCasts S1x512
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  reduces_S64x512_S512 : S64x512.Reduces [0] S512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  slices_S4096x1024_S4096x512_0_0 : S4096x1024.Slices ![0, 0] S4096x512
  slices_S4096x1024_S4096x512_0_512 : S4096x1024.Slices ![0, 512] S4096x512
  dot_S1024x256_S256x512_S1024x512_1_0_0_1_n_n_wf : DotDims.WF S1024x256 S256x512 S1024x512 [1] [0] [0] [1] [] []
  dot_S512x2048_S2048x1024_S512x1024_1_0_0_1_n_n_wf : DotDims.WF S512x2048 S2048x1024 S512x1024 [1] [0] [0] [1] [] []
  dot_S1x512_S512x512_S1x512_1_0_0_1_n_n_wf : DotDims.WF S1x512 S512x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x1024.size a
  hwx0_2 : ∀ i : grid0.Coords, EltTy.bits .bf16 = 32 ∨ (Rect.block (s := S4096x1024) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x4096.size a
  hwx1_0 : ∀ i : grid1.Coords, EltTy.bits .bf16 = 32 ∨ (Rect.block (s := S4096x4096) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x1024.size a
  hwx1_1 : ∀ i : grid1.Coords, EltTy.bits .bf16 = 32 ∨ (Rect.block (s := S4096x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x512.size a ≤ S64x512.size a
  hwx1_4 : ∀ i : grid1.Coords, EltTy.bits .f32 = 32 ∨ (Rect.block (s := S64x512) S8x512.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S64x512.size a
  hwx2_0 : ∀ i : grid2.Coords, EltTy.bits .f32 = 32 ∨ (Rect.block (s := S64x512) S64x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf

abbrev win0_0 : Pipeline.Window sig grid0 :=
  Pipeline.Window.ofSpec (Memref.whole main_v4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S512x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S8x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v13_1) S64x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v10) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x512.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== Proof.KernelPieces.lean ====
import proofs.«127692_g2000106255353042_pallasbulk_995_18_alg».proof.Proof.Gen.KernelIdeal.Value
import Idealize.ShloMosaic.Lib.Pipeline.Value
import Idealize.ShloMosaic.Lib.Tactic
set_option maxRecDepth 16384

noncomputable section

open Idealize.ShloMosaic Idealize.ShloMosaic.TcCoe Idealize.ShloMosaic.Tactic Idealize.SL.Sem
open Idealize.ShloMosaic.Pipeline (Dat)

namespace Cert.KernelIdeal.Bands

open Cert.KernelIdeal Cert.KernelIdeal.Gen

variable {F : FTy → Type} [FloatOps F]

/-! ## What each case of the body leaves, as values of the payloads

The body runs in three cases: at the first band it first fills the feature scratch with the two feature arrays side by
side and zeroes the column-sum scratch; at every band it stores the two encoded bands and adds the clean band's column
sums to the scratch; at the last band it also reads the summary out. -/

theorem hz : (![0, 0] : Fin 2 → Nat) = fun _ => 0 := funext fun a => by fin_cases a <;> rfl

/-- The two stores that fill the feature scratch: the corrupted features into columns 256.., the clean ones into columns 0... -/
abbrev fillPieces (a b : Vec F S4096x256 .bf16) : List (View.Piece (Elt F) S4096x512 .bf16) :=
  [⟨Rect.unit (s := S4096x512) ![0, 256] S4096x256.size inb_S4096x512_S4096x256_0_256, b⟩,
   ⟨Rect.unit (s := S4096x512) ![0, 0] S4096x256.size inb_S4096x512_S4096x256_0_0, a⟩]

/-- The feature scratch after the fill: `a` in columns 0..255, `b` in columns 256..511. -/
def filled (a b : Vec F S4096x256 .bf16) : Vec F S4096x512 .bf16 := View.canon (fillPieces a b)

/-- The two halves tile the scratch. -/
theorem fill_cover (a b : Vec F S4096x256 .bf16) (y : S4096x512.Idx) : ∃ p ∈ fillPieces a b, y ∈ p.1.set := by
  have h0 : (y 0 : Nat) < 4096 := (y 0).isLt
  have h1 : (y 1 : Nat) < 512 := (y 1).isLt
  by_cases h : (y 1 : Nat) < 256
  · refine ⟨_, List.mem_cons_of_mem _ (List.mem_singleton_self _), ?_⟩
    rw [Rect.mem_set_unit]
    intro d
    match d with
    | ⟨0, _⟩ => exact ⟨Nat.zero_le _, by show (y 0 : Nat) < 0 + 4096; omega⟩
    | ⟨1, _⟩ => exact ⟨Nat.zero_le _, by show (y 1 : Nat) < 0 + 256; omega⟩
  · refine ⟨_, List.mem_cons_self, ?_⟩
    rw [Rect.mem_set_unit]
    intro d
    match d with
    | ⟨0, _⟩ => exact ⟨Nat.zero_le _, by show (y 0 : Nat) < 0 + 4096; omega⟩
    | ⟨1, _⟩ => exact ⟨by show 256 ≤ (y 1 : Nat); omega, by show (y 1 : Nat) < 256 + 256; omega⟩

/-! ### The first band -/

theorem scratchX_A (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : cond0_0 i) (hc1 : ¬cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = filled (k0_pay1 x0) (k0_pay2 x1) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]
  rfl

theorem band7_A (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : cond0_0 i) (hc1 : ¬cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) :
    out0_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k0_pay5 x4 (filled (k0_pay1 x0) (k0_pay2 x1)) x2 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]
  rw [View.readCov_eq_canon_ld _ _ _ (fill_cover _ _), View.ld_unit_zero (S := S4096x512) hz]
  rfl

theorem band8_A (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : cond0_0 i) (hc1 : ¬cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) :
    out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k0_pay6 x4 (filled (k0_pay1 x0) (k0_pay2 x1)) x2 x3 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]
  rw [View.readCov_eq_canon_ld _ _ _ (fill_cover _ _), View.ld_unit_zero (S := S4096x512) hz]
  rfl

theorem sums_A (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : cond0_0 i) (hc1 : ¬cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) :
    sout0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k0_pay7 x4 (filled (k0_pay1 x0) (k0_pay2 x1)) x2 x3 (k0_pay3 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S8x512) hz, View.readCov_unit_zero (S := S8x512) _ hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]
  rw [View.readCov_eq_canon_ld _ _ _ (fill_cover _ _), View.ld_unit_zero (S := S4096x512) hz]
  rfl

/-! ### A middle band -/

theorem scratchX_B (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : ¬cond0_0 i) (hc1 : ¬cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) (xs0 : Vec F S4096x512 .bf16) (xs1 : Vec F S8x512 .f32) :
    sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = xs0 := by
  unfold sout0_B_0
  rfl

theorem band7_B (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : ¬cond0_0 i) (hc1 : ¬cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) (xs0 : Vec F S4096x512 .bf16) (xs1 : Vec F S8x512 .f32) :
    out0_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 x4 xs0 x2 x3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]

theorem band8_B (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : ¬cond0_0 i) (hc1 : ¬cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) (xs0 : Vec F S4096x512 .bf16) (xs1 : Vec F S8x512 .f32) :
    out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay6 x4 xs0 x2 x3 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]

theorem sums_B (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : ¬cond0_0 i) (hc1 : ¬cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) (xs0 : Vec F S4096x512 .bf16) (xs1 : Vec F S8x512 .f32) :
    sout0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay7 x4 xs0 x2 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]

/-! ### The last band -/

theorem scratchX_C (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : ¬cond0_0 i) (hc1 : cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) (xs0 : Vec F S4096x512 .bf16) (xs1 : Vec F S8x512 .f32) :
    sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = xs0 := by
  unfold sout0_C_0
  rfl

theorem band7_C (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : ¬cond0_0 i) (hc1 : cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) (xs0 : Vec F S4096x512 .bf16) (xs1 : Vec F S8x512 .f32) :
    out0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 x4 xs0 x2 x3 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]

theorem band8_C (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : ¬cond0_0 i) (hc1 : cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) (xs0 : Vec F S4096x512 .bf16) (xs1 : Vec F S8x512 .f32) :
    out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay6 x4 xs0 x2 x3 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]

theorem sums_C (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : ¬cond0_0 i) (hc1 : cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) (xs0 : Vec F S4096x512 .bf16) (xs1 : Vec F S8x512 .f32) :
    sout0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay7 x4 xs0 x2 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]

theorem readout_C (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S4096x512 .bf16) (harg11 : arg11.IsWhole) (arg12 : Memref sig .tc .vmem S8x512 .f32) (harg12 : arg12.IsWhole) (hc0 : ¬cond0_0 i) (hc1 : cond0_1 i) (x0 : Vec F S4096x256 .f32) (x1 : Vec F S4096x256 .f32) (x2 : Vec F S256x512 .f32) (x3 : Vec F S1x512 .f32) (x4 : Vec F S1024x4096 .bf16) (x5 : Vec F S512x512 .f32) (x6 : Vec F S1x512 .f32) (xs0 : Vec F S4096x512 .bf16) (xs1 : Vec F S8x512 .f32) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay8 (k0_pay7 x4 xs0 x2 x3 xs1) x6 x5 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz, View.readCov_unit_zero (S := S8x512) _ hz]
  simp only [View.readAt_eq_ld, harg1.read_unread, harg2.read_unread, harg3.read_unread, harg4.read_unread, harg5.read_unread, harg6.read_unread, harg7.read_unread, harg11.read_unread, harg12.read_unread, View.ld_unit_zero (S := S4096x256) hz, View.ld_unit_zero (S := S256x512) hz, View.ld_unit_zero (S := S1x512) hz, View.ld_unit_zero (S := S1024x4096) hz, View.ld_unit_zero (S := S512x512) hz, View.ld_unit_zero (S := S4096x512) hz, View.ld_unit_zero (S := S8x512) hz]

end Cert.KernelIdeal.Bands

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.LibDenseRows.lean ====
/-
  General lemmas for a kernel that pushes tokens (rows) through dense layers and a row normalisation, all read at the
  exact (extended) reals, where every float operation is the textbook one:

  * the keepdims column forms: an `[a]` vector viewed as a column `[a, 1]`, and a column `[a, 1]` broadcast along
    the rows of an `[a, b]` array;
  * the sum of an `[a, b]` array along its second axis, read at a row, is the sum over that row;
  * a matrix product of an `[M, K]` array with an `[N, K]` array contracting BOTH second axes (the weight stored
    output-major, as a linear layer keeps it), accumulated into zero, read at `(r, c)`, is `Σ_k lhs (r, k) · rhs (c, k)`;
  * one dense layer: that product plus a bias row `[1, N]` broadcast over the rows.

  Nothing here mentions a particular program: the extents are variables, only ranks and axis lists are literal.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDenseRows

open Idealize.ShloMosaic Idealize.ShloMosaic.ValueIdx

/-! ## The keepdims column forms -/

section Layout
variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum -/

/-- The sum of an `[a, b]` array along its second axis, at the exact reals, read at row `r`: the sum over that row
    (the accumulator word is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-! ## A product against an output-major weight -/

section Dense
variable {M K N : ℕ} {φ₁ φ₂ : FTy}

/-- The dimension numbers of `[M, K] · [N, K]ᵀ`: both second axes contracted, no batch axis. -/
abbrev dimsNT (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  ⟨[1], [1], [0], [0], [], [], wf⟩

variable (wf : DotDims.WF (⟨2, ![M, K]⟩ : Shape) ⟨2, ![N, K]⟩ ⟨2, ![M, N]⟩ [1] [1] [0] [0] [] [])

theorem dimsNT_lhs0 (j : (⟨2, ![M, N]⟩ : Shape).Idx) (q : (dimsNT wf).contr.Idx) :
    ((dimsNT wf).lhsIdx j q 0).val = (j 0).val := by
  unfold DotDims.lhsIdx
  rw [dif_neg (show ¬(0 : Fin (⟨2, ![M, K]⟩ : Shape).rank) ∈ (dimsNT wf).lhsBatch from List.not_mem_nil),
    dif_pos (show (0 : Fin (⟨2, ![M, K]⟩ : Shape).rank) ∈ (dimsNT wf).lhsNonContracting from List.mem_singleton.mpr rfl)]
  rfl
theorem dimsNT_lhs1 (j : (⟨2, ![M, N]⟩ : Shape).Idx) (q : (dimsNT wf).contr.Idx) :
    ((dimsNT wf).lhsIdx j q 1).val = (q ⟨0, Nat.one_pos⟩).val :=
  (dimsNT wf).lhsIdx_val_of_single rfl j q
theorem dimsNT_rhs0 (j : (⟨2, ![M, N]⟩ : Shape).Idx) (q : (dimsNT wf).contr.Idx) :
    ((dimsNT wf).rhsIdx j q 0).val = (j 1).val := by
  unfold DotDims.rhsIdx
  rw [dif_neg (show ¬(0 : Fin (⟨2, ![N, K]⟩ : Shape).rank) ∈ (dimsNT wf).rhsBatch from List.not_mem_nil),
    dif_pos (show (0 : Fin (⟨2, ![N, K]⟩ : Shape).rank) ∈ (dimsNT wf).rhsNonContracting from List.mem_singleton.mpr rfl)]
  rfl
theorem dimsNT_rhs1 (j : (⟨2, ![M, N]⟩ : Shape).Idx) (q : (dimsNT wf).contr.Idx) :
    ((dimsNT wf).rhsIdx j q 1).val = (q ⟨0, Nat.one_pos⟩).val :=
  (dimsNT wf).rhsIdx_val_of_single rfl j q

/-- THE PRODUCT READ AT `(r, c)`: accumulated into the zero splat it is `Σ_k lhs (r, k) · rhs (c, k)` — a sum over a
    `Fin K` in which no order of accumulation is left. -/
theorem matmulNT_zero_apply (prec : Option ContractPrecision) (lhs : FVec Ideal ⟨2, ![M, K]⟩ φ₁)
    (rhs : FVec Ideal ⟨2, ![N, K]⟩ φ₂) (r : Fin M) (c : Fin N) :
    FloatOps.matmul (dimsNT wf) prec lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 r c) ((contrEquiv1 (dimsNT wf) K rfl rfl).symm k) = ix2 r k :=
    funext fun a => Fin.ext (by
      match a with
      | ⟨0, _⟩ => exact dimsNT_lhs0 wf _ _
      | ⟨1, _⟩ => exact (dimsNT_lhs1 wf _ _).trans hk)
  have er : (dimsNT wf).rhsIdx (ix2 r c) ((contrEquiv1 (dimsNT wf) K rfl rfl).symm k) = ix2 c k :=
    funext fun a => Fin.ext (by
      match a with
      | ⟨0, _⟩ => exact dimsNT_rhs0 wf _ _
      | ⟨1, _⟩ => exact (dimsNT_rhs1 wf _ _).trans hk)
  rw [el, er]

/-- ONE DENSE LAYER on a tile of `M` tokens: the product into zero plus a bias row `[1, N]` broadcast over the rows,
    read at token `r` and output unit `c`, is `Σ_k lhs (r, k) · rhs (c, k) + bias (0, c)`. -/
theorem denseNT_apply (prec : Option ContractPrecision) (lhs : FVec Ideal ⟨2, ![M, K]⟩ φ₁)
    (rhs : FVec Ideal ⟨2, ![N, K]⟩ φ₂) (bias : FVec Ideal ⟨2, ![1, N]⟩ .f32)
    (hb : (⟨2, ![1, N]⟩ : Shape).Broadcasts ⟨2, ![M, N]⟩) (r : Fin M) (c : Fin N) :
    addf (matmul (dimsNT wf) prec lhs rhs (constant ⟨2, ![M, N]⟩ .f32 0x00000000#32)) (broadcastTo ⟨2, ![M, N]⟩ bias hb) (ix2 r c)
      = ∑ k : Fin K, lhs (ix2 r k) * rhs (ix2 c k) + bias (ix2 (0 : Fin 1) c) := by
  rw [addf_apply, broadcastTo_1b_ab_apply]
  exact congrArg (· + bias (ix2 (0 : Fin 1) c)) (matmulNT_zero_apply wf prec lhs rhs r c)

end Dense

end Cert.LibDenseRows

end
-- ==== Proof.LibAxisFolds.lean ====
/-
  Sums and maxima of a two-axis array of extended reals along one of its axes, read at an index, and the one entry
  of a one-by-one array. Every float operation is the exact one; the extents are variables, only the ranks and the
  axis lists are literal.

  * `colSum_apply`: the sum of an a-by-b array along its first axis, read at column c, is the sum over k < a of
    the entries (k, c); the accumulator word is the sum's neutral element and contributes nothing.
  * `rowMax_apply`: the maximum of an a-by-b array along its second axis, read at row r, is the fold of max, from
    the value the accumulator word denotes, over the entries (r, k), k < b.
  * `colMax_apply`: the maximum along the first axis, read at column c, is the same fold over the entries (k, c),
    k < a.
  * `extractAt_00`: the element extracted at position (0, 0) of a one-by-one array is its entry (0, 0).
-/
import Idealize.ShloMosaic.Lib.ValueIdx
import Idealize.ShloMosaic.PureOps.Ideal.Laws

noncomputable section

open scoped BigOperators

namespace Cert.LibAxisFolds

open Idealize.ShloMosaic Idealize.ShloMosaic.ValueIdx

/-- The sum of an `[a, b]` array along its first axis, read at column `c`: the sum over that column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

/-- The maximum of an `[a, b]` array along its second axis, read at row `r`: the maximum over that row, from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine Finset.fold_congr fun k _ => congrArg src ?_
  funext ax; apply Fin.ext
  match ax with
  | ⟨0, _⟩ => rfl
  | ⟨1, _⟩ => rfl

/-- The maximum of an `[a, b]` array along its first axis, read at column `c`. -/
theorem colMax_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine Finset.fold_congr fun k _ => congrArg src ?_
  funext ax; apply Fin.ext
  match ax with
  | ⟨0, _⟩ => rfl
  | ⟨1, _⟩ => rfl

/-- The one entry of a `[1, 1]` array, extracted at position (0, 0). -/
theorem extractAt_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibAxisFolds

end
-- ==== Proof.DgiSpec.lean ====
/-
  The functions both programs compute, index by index over the extended reals.

  Notation: `A` is the [4096,4096] adjacency, `x`, `xc` the clean and corrupted [4096,256] features, `W` the
  [256,512] encoder weights, `b` its [1,512] bias, `wp` the [512,512] projection weights, `bp` its [1,512] bias.

  One program propagates first and encodes second, one row band of `A` at a time:
    z (r,h) = Σ_d (Σ_k A(r,k) · xs(k,d)) · W(d,h) + b(h)        with xs = [x | xc] side by side,
  accumulates the column sums of the clean half band by band into eight equal sublanes, and reads the summary out as
    g (j) = bp(j) + Σ_h σ((Σ_s acc(s,h)) · 2⁻¹⁵) · wp(j,h).
  The other encodes first (hcat = [x·W | xc·W]), propagates in two halves of the contraction axis starting from the bias,
    zall (r,c) = (bb(c) + Σ_{k<2048} A(r,k)·hcat(k,c)) + Σ_{k<2048} A(r,2048+k)·hcat(2048+k,c),
  keeps one column-sum row block per 512-row tile, eight equal sublanes each, and reads out
    g (j) = Σ_h σ((Σ_q part(q,h)) · 2⁻¹⁵) · wpᵀ(h,j) + bp(j).
-/
import Idealize.ShloMosaic.PureOps.Ideal
import Idealize.ShloMosaic.Lib.ValueIdx

noncomputable section

namespace Dgi

open Idealize.ShloMosaic Idealize.ShloMosaic.ValueIdx

/-- A rank-2 array of extended reals. -/
abbrev Arr (a b : Nat) : Type := (⟨2, ![a, b]⟩ : Shape).Idx → EReal

/-- The readout's scale, 2⁻¹⁵ = 1/(8·4096), as the word both programs carry. -/
def scale : EReal := Ideal.ofBits .f32 0x38000000#32

/-! ## Propagate, then encode -/

/-- `[x | xc]`: the two feature arrays side by side. -/
def sideBySide (x xc : Arr 4096 256) : Arr 4096 512 := fun j =>
  if h : (j 1).val < 256 then x (ix2 (j 0) ⟨(j 1).val, h⟩)
  else xc (ix2 (j 0) ⟨(j 1).val - 256, by have := idx2_lt1 j; omega⟩)

/-- `(A · xs)[:, off : off+256] · W + b`. -/
def propEnc (A : Arr 4096 4096) (xs : Arr 4096 512) (off : Nat) (hoff : off + 256 ≤ 512) (W : Arr 256 512) (b : Arr 1 512) :
    Arr 4096 512 := fun j =>
  (∑ d : Fin 256, (∑ k : Fin 4096, A (ix2 (j 0) k) * xs (ix2 k ⟨off + d.val, by have := d.isLt; omega⟩)) * W (ix2 d (j 1)))
    + b (ix2 0 (j 1))

/-- The column sum of one 1024-row band. -/
def bandSum (z : Arr 4096 512) (t : Fin 4) (h : Fin 512) : EReal :=
  ∑ r : Fin 1024, z (ix2 ⟨1024 * t.val + r.val, by have := t.isLt; have := r.isLt; omega⟩ h)

/-- The accumulator after the four bands, from zero, in the order the bands are visited. -/
def bandAcc (z : Arr 4096 512) (h : Fin 512) : EReal :=
  (((0 + bandSum z 0 h) + bandSum z 1 h) + bandSum z 2 h) + bandSum z 3 h

/-- The summary readout over the eight equal sublanes of the accumulator, contracted against `wp`'s second axis. -/
def bandReadout (z : Arr 4096 512) (wp : Arr 512 512) (bp : Arr 1 512) : Arr 1 512 := fun j =>
  bp (ix2 0 (j 1)) + ∑ h : Fin 512, Ideal.logistic ((∑ _s : Fin 8, bandAcc z h) * scale) * wp (ix2 (j 1) h)

/-! ## Encode, then propagate -/

/-- `x` on top of `xc`. -/
def stack (x xc : Arr 4096 256) : Arr 8192 256 := fun j =>
  if h : (j 0).val < 4096 then x (ix2 ⟨(j 0).val, h⟩ (j 1))
  else xc (ix2 ⟨(j 0).val - 4096, by have := idx2_lt0 j; omega⟩ (j 1))

/-- `[b | b]`. -/
def twice (b : Arr 1 512) : Arr 1 1024 := fun j =>
  if h : (j 1).val < 512 then b (ix2 (j 0) ⟨(j 1).val, h⟩)
  else b (ix2 (j 0) ⟨(j 1).val - 512, by have := idx2_lt1 j; omega⟩)

/-- `wᵀ`. -/
def transposed (w : Arr 512 512) : Arr 512 512 := fun j => w (ix2 (j 1) (j 0))

/-- The encoded features `[x·W | xc·W]` from the stacked input: column block `c / 512` reads row block `c / 512`. -/
def featOut (xall : Arr 8192 256) (w : Arr 256 512) : Arr 4096 1024 := fun j =>
  ∑ d : Fin 256, xall (ix2 ⟨4096 * ((j 1).val / 512) + (j 0).val, by have := idx2_lt0 j; have := idx2_lt1 j; omega⟩ d)
    * w (ix2 d ⟨(j 1).val % 512, Nat.mod_lt _ (by decide)⟩)

/-- The propagation `A · h + bb`, the bias first, the contraction axis in two halves of 2048. -/
def spmmOut (A : Arr 4096 4096) (h : Arr 4096 1024) (bb : Arr 1 1024) : Arr 4096 1024 := fun j =>
  (bb (ix2 0 (j 1)) + ∑ k : Fin 2048, A (ix2 (j 0) ⟨k.val, by have := k.isLt; omega⟩) * h (ix2 ⟨k.val, by have := k.isLt; omega⟩ (j 1)))
    + ∑ k : Fin 2048, A (ix2 (j 0) ⟨2048 + k.val, by have := k.isLt; omega⟩) * h (ix2 ⟨2048 + k.val, by have := k.isLt; omega⟩ (j 1))

/-- One column-sum row per 512-row tile of the clean half, repeated on eight sublanes: row `q` belongs to tile `q / 8`. -/
def partOut (z : Arr 4096 1024) : Arr 64 512 := fun q =>
  ∑ r : Fin 512, z (ix2 ⟨512 * ((q 0).val / 8) + r.val, by have := idx2_lt0 q; have := r.isLt; omega⟩
    ⟨(q 1).val, by have := idx2_lt1 q; omega⟩)

/-- The summary readout over all 64 rows of the partial sums, contracted against `wT`'s first axis. -/
def projOut (part : Arr 64 512) (wT : Arr 512 512) (bp : Arr 1 512) : Arr 1 512 := fun j =>
  (∑ h : Fin 512, Ideal.logistic ((∑ q : Fin 64, part (ix2 q h)) * scale) * wT (ix2 h (j 1))) + bp (ix2 0 (j 1))

/-- Columns 0..511. -/
def leftHalf (z : Arr 4096 1024) : Arr 4096 512 := fun j =>
  z (ix2 (j 0) ⟨(j 1).val, by have := idx2_lt1 j; omega⟩)

/-- Columns 512..1023. -/
def rightHalf (z : Arr 4096 1024) : Arr 4096 512 := fun j =>
  z (ix2 (j 0) ⟨512 + (j 1).val, by have := idx2_lt1 j; omega⟩)

/-- Every entry is a real number. -/
def IsReal {a b : Nat} (f : Arr a b) : Prop := ∀ j, ∃ r : ℝ, f j = (r : EReal)

end Dgi

end
-- ==== Proof.KernelPayloads.lean ====
/-
  The band body's arithmetic read at an index over the extended reals: the feature scratch's two halves, the
  propagation A_band · [x | xc] as a sum over the 4096 nodes, the encoding of one half of it against W plus the bias row,
  the column sums of a clean band added to the running sums, and the summary readout.
-/
import proofs.«127692_g2000106255353042_pallasbulk_995_18_alg».proof.Proof.KernelPieces
import proofs.«127692_g2000106255353042_pallasbulk_995_18_alg».proof.Proof.LibPlainDot
import proofs.«127692_g2000106255353042_pallasbulk_995_18_alg».proof.Proof.LibDenseRows
import proofs.«127692_g2000106255353042_pallasbulk_995_18_alg».proof.Proof.LibAxisFolds
import proofs.«127692_g2000106255353042_pallasbulk_995_18_alg».proof.Proof.DgiSpec
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.Bands

open Cert.KernelIdeal Cert.KernelIdeal.Gen

/-! ## The feature scratch, half by half -/

section AnyF
variable {F : FTy → Type} [FloatOps F]

/-- Columns 0..255 of the filled scratch are the first array. -/
theorem filled_left (a b : Vec F S4096x256 .bf16) (k : Fin 4096) (d : Fin 256) (q : Fin 512) (hq : q.val = 0 + d.val) :
    filled a b (ix2 k q) = a (ix2 k d) := by
  unfold filled
  have hd' := d.isLt
  have hn : ¬ (ix2 k q) ∈ (Rect.unit (s := S4096x512) ![0, 256] S4096x256.size inb_S4096x512_S4096x256_0_256).set := by
    rw [Rect.mem_set_unit]
    intro h
    have h1 : 256 ≤ q.val := (h 1).1
    omega
  refine (View.canon_cons_of_not_mem
    (⟨Rect.unit (s := S4096x512) ![0, 256] S4096x256.size inb_S4096x512_S4096x256_0_256, b⟩ : View.Piece (Elt F) S4096x512 .bf16)
    [⟨Rect.unit (s := S4096x512) ![0, 0] S4096x256.size inb_S4096x512_S4096x256_0_0, a⟩] hn).trans ?_
  have e : ix2 k q
      = (Rect.unit (s := S4096x512) ![0, 0] S4096x256.size inb_S4096x512_S4096x256_0_0).emb (ix2 k d) := by
    funext ax
    apply Fin.ext
    match ax with
    | ⟨0, _⟩ => show k.val = 0 + 1 * k.val; omega
    | ⟨1, _⟩ => show q.val = 0 + 1 * d.val; omega
  rw [e, View.canon_cons_emb]

/-- Columns 256..511 are the second. -/
theorem filled_right (a b : Vec F S4096x256 .bf16) (k : Fin 4096) (d : Fin 256) (q : Fin 512) (hq : q.val = 256 + d.val) :
    filled a b (ix2 k q) = b (ix2 k d) := by
  unfold filled
  have e : ix2 k q
      = (Rect.unit (s := S4096x512) ![0, 256] S4096x256.size inb_S4096x512_S4096x256_0_256).emb (ix2 k d) := by
    funext ax
    apply Fin.ext
    match ax with
    | ⟨0, _⟩ => show k.val = 0 + 1 * k.val; omega
    | ⟨1, _⟩ => show q.val = 256 + 1 * d.val; omega
  rw [e, View.canon_cons_emb]

end AnyF

/-! ## The payloads over the extended reals -/

/-- Narrowing the clean features to the scratch's format changes nothing here. -/
theorem stage_x (x0 : Vec Ideal S4096x256 .f32) (j : S4096x256.Idx) : k0_pay1 (F := Ideal) x0 j = x0 j := by
  unfold k0_pay1
  simp only [shapeCast_self]
  rfl

/-- Nor does narrowing the corrupted ones. -/
theorem stage_xc (x1 : Vec Ideal S4096x256 .f32) (j : S4096x256.Idx) : k0_pay2 (F := Ideal) x1 j = x1 j := by
  unfold k0_pay2
  simp only [shapeCast_self]
  rfl

/-- The running sums start at zero. -/
theorem start_zero (j : S8x512.Idx) : k0_pay3 (F := Ideal) j = 0 := by
  unfold k0_pay3
  simp only [shapeCast_self]
  show Ideal.ofBits .f32 0x00000000#32 = 0
  exact Ideal.ofBits_zero_f32

/-- The propagation of one band: row `r` of the band against column `c` of the scratch. -/
theorem prop_apply (v3 : Vec Ideal S1024x4096 .bf16) (v4 : Vec Ideal S4096x512 .bf16) (r : Fin 1024) (c : Fin 512) :
    k0_pay4 v3 v4 (ix2 r c) = ∑ k : Fin 4096, v3 (ix2 r k) * v4 (ix2 k c) := by
  unfold k0_pay4
  exact PlainDot.matmul_zero_plain dot_S1024x4096_S4096x512_S1024x512_1_0_0_1_n_n rfl rfl rfl rfl rfl rfl none v3 v4 (ix2 r c)

/-- The clean half encoded: columns 0..255 of the propagated band against W, plus the bias row. -/
theorem enc_clean_apply (v3 : Vec Ideal S1024x4096 .bf16) (v4 : Vec Ideal S4096x512 .bf16) (v6 : Vec Ideal S256x512 .f32)
    (v7 : Vec Ideal S1x512 .f32) (r : Fin 1024) (h : Fin 512) :
    k0_pay5 v3 v4 v6 v7 (ix2 r h)
      = (∑ d : Fin 256, (∑ k : Fin 4096, v3 (ix2 r k) * v4 (ix2 k (⟨0 + d.val, by have := d.isLt; omega⟩ : Fin 512))) * v6 (ix2 d h))
        + v7 (ix2 (0 : Fin 1) h) := by
  unfold k0_pay5
  rw [addf_apply, broadcastTo_1b_ab_apply]
  refine congrArg (· + v7 (ix2 (0 : Fin 1) h)) ?_
  refine (PlainDot.matmul_zero_plain dot_S1024x256_S256x512_S1024x512_1_0_0_1_n_n rfl rfl rfl rfl rfl rfl none _ v6 (ix2 r h)).trans ?_
  refine Finset.sum_congr rfl fun d _ => ?_
  refine congrArg (· * v6 (ix2 d h)) ?_
  rw [extractStridedSlice_apply ![0, 0] (k0_pay4 v3 v4) _ (ix2 r d) (ix2 r (⟨0 + d.val, by have := d.isLt; omega⟩ : Fin 512))
    (fun a => by
      match a with
      | ⟨0, _⟩ => exact (Nat.zero_add _).symm
      | ⟨1, _⟩ => rfl)]
  exact prop_apply v3 v4 r _

/-- The corrupted half encoded: columns 256..511 of the propagated band against W, plus the bias row. -/
theorem enc_corrupt_apply (v3 : Vec Ideal S1024x4096 .bf16) (v4 : Vec Ideal S4096x512 .bf16) (v6 : Vec Ideal S256x512 .f32)
    (v7 : Vec Ideal S1x512 .f32) (r : Fin 1024) (h : Fin 512) :
    k0_pay6 v3 v4 v6 v7 (ix2 r h)
      = (∑ d : Fin 256, (∑ k : Fin 4096, v3 (ix2 r k) * v4 (ix2 k (⟨256 + d.val, by have := d.isLt; omega⟩ : Fin 512))) * v6 (ix2 d h))
        + v7 (ix2 (0 : Fin 1) h) := by
  unfold k0_pay6
  rw [addf_apply, broadcastTo_1b_ab_apply]
  refine congrArg (· + v7 (ix2 (0 : Fin 1) h)) ?_
  refine (PlainDot.matmul_zero_plain dot_S1024x256_S256x512_S1024x512_1_0_0_1_n_n rfl rfl rfl rfl rfl rfl none _ v6 (ix2 r h)).trans ?_
  refine Finset.sum_congr rfl fun d _ => ?_
  refine congrArg (· * v6 (ix2 d h)) ?_
  rw [extractStridedSlice_apply ![0, 256] (k0_pay4 v3 v4) _ (ix2 r d) (ix2 r (⟨256 + d.val, by have := d.isLt; omega⟩ : Fin 512))
    (fun a => by
      match a with
      | ⟨0, _⟩ => exact (Nat.zero_add _).symm
      | ⟨1, _⟩ => rfl)]
  exact prop_apply v3 v4 r _

/-- The running sums after a band: what they held, plus the band's column sum, on every sublane. -/
theorem acc_apply (v3 : Vec Ideal S1024x4096 .bf16) (v4 : Vec Ideal S4096x512 .bf16) (v6 : Vec Ideal S256x512 .f32)
    (v7 : Vec Ideal S1x512 .f32) (v18 : Vec Ideal S8x512 .f32) (s : Fin 8) (h : Fin 512) :
    k0_pay7 v3 v4 v6 v7 v18 (ix2 s h) = v18 (ix2 s h) + ∑ r : Fin 1024, k0_pay5 v3 v4 v6 v7 (ix2 r h) := by
  unfold k0_pay7
  simp only [shapeCast_self]
  rw [addf_apply, broadcastTo_1b_ab_apply, shapeCast_a_1a_apply]
  exact congrArg (v18 (ix2 s h) + ·) (Cert.LibAxisFolds.colSum_apply (k0_pay5 v3 v4 v6 v7) 0x00000000#32 reduces_S1024x512_S512 (.inl rfl) rfl h)

/-- The readout: the bias plus the squashed mean contracted against the second axis of the projection weights. -/
theorem readout_apply (v30 : Vec Ideal S8x512 .f32) (v36 : Vec Ideal S1x512 .f32) (v37 : Vec Ideal S512x512 .f32)
    (u : Fin 1) (j : Fin 512) :
    k0_pay8 v30 v36 v37 (ix2 u j)
      = v36 (ix2 u j) + ∑ h : Fin 512, Ideal.logistic ((∑ s : Fin 8, v30 (ix2 s h)) * Dgi.scale) * v37 (ix2 j h) := by
  unfold k0_pay8
  rw [addf_apply]
  refine congrArg (v36 (ix2 u j) + ·) ?_
  have e : dot_S1x512_S512x512_S1x512_1_1_0_0_n_n = Cert.LibDenseRows.dimsNT dot_S1x512_S512x512_S1x512_1_1_0_0_n_n_wf := rfl
  rw [e]
  refine (Cert.LibDenseRows.matmulNT_zero_apply dot_S1x512_S512x512_S1x512_1_1_0_0_n_n_wf none _ v37 u j).trans ?_
  refine Finset.sum_congr rfl fun h _ => ?_
  refine congrArg (· * v37 (ix2 j h)) ?_
  refine congrArg Ideal.logistic ?_
  rw [mulf_apply, shapeCast_a_1a_apply]
  exact congrArg (· * Dgi.scale) (Cert.LibAxisFolds.colSum_apply v30 0x00000000#32 reduces_S8x512_S512 (.inl rfl) rfl h)

end Cert.KernelIdeal.Bands

end
-- ==== Proof.KernelValue.lean ====
/-
  The band kernel's three result arrays as functions of its arguments: the feature scratch holds the two feature arrays
  side by side from the first band on, the column-sum scratch holds the running sums band after band, every band writes
  its 1024 rows of the two encoded arrays, and the last band writes the summary.
-/
import proofs.«127692_g2000106255353042_pallasbulk_995_18_alg».proof.Proof.KernelPayloads

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Bands

open Cert.KernelIdeal Cert.KernelIdeal.Gen

variable (m : (ℓ : Loc nD τ sig) → Buf (Elt Ideal) ℓ) (ρ : Dev nD → PrngReg)

/-! ## The windows' blocks -/

/-- The index maps over the four bands: the seven whole-array windows and the summary stay at block (0,0); the
    adjacency and the two encoded outputs move one row band per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_9.index t (0 : Fin 2) = 0 ∧ win0_9.index t (1 : Fin 2) = 0
    ∧ win0_4.index t (0 : Fin 2) = t.val ∧ win0_4.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Window 0 is its whole array at every band. -/
theorem blk0_whole (c : Dev nD) (t : Fin cfg0.N) : (iblk m c 0 t : Vec Ideal S4096x256 .f32) = V m c main_arg0 := by
  have hw := idx_facts t
  funext j
  unfold iblk
  rw [View.read_apply]
  show V m c main_arg0 _ = V m c main_arg0 j
  refine congrArg (V m c main_arg0) ?_
  funext a
  apply Fin.ext
  match a with
  | ⟨0, _⟩ => show win0_0.index t (0 : Fin 2) * 4096 + 1 * (j 0).val = (j 0).val; omega
  | ⟨1, _⟩ => show win0_0.index t (1 : Fin 2) * 256 + 1 * (j 1).val = (j 1).val; omega

/-- Window 1 is its whole array at every band. -/
theorem blk1_whole (c : Dev nD) (t : Fin cfg0.N) : (iblk m c 1 t : Vec Ideal S4096x256 .f32) = V m c main_arg1 := by
  have hw := idx_facts t
  funext j
  unfold iblk
  rw [View.read_apply]
  show V m c main_arg1 _ = V m c main_arg1 j
  refine congrArg (V m c main_arg1) ?_
  funext a
  apply Fin.ext
  match a with
  | ⟨0, _⟩ => show win0_1.index t (0 : Fin 2) * 4096 + 1 * (j 0).val = (j 0).val; omega
  | ⟨1, _⟩ => show win0_1.index t (1 : Fin 2) * 256 + 1 * (j 1).val = (j 1).val; omega

/-- Window 2 is its whole array at every band. -/
theorem blk2_whole (c : Dev nD) (t : Fin cfg0.N) : (iblk m c 2 t : Vec Ideal S256x512 .f32) = V m c main_arg3 := by
  have hw := idx_facts t
  funext j
  unfold iblk
  rw [View.read_apply]
  show V m c main_arg3 _ = V m c main_arg3 j
  refine congrArg (V m c main_arg3) ?_
  funext a
  apply Fin.ext
  match a with
  | ⟨0, _⟩ => show win0_2.index t (0 : Fin 2) * 256 + 1 * (j 0).val = (j 0).val; omega
  | ⟨1, _⟩ => show win0_2.index t (1 : Fin 2) * 512 + 1 * (j 1).val = (j 1).val; omega

/-- Window 3 is its whole array at every band. -/
theorem blk3_whole (c : Dev nD) (t : Fin cfg0.N) : (iblk m c 3 t : Vec Ideal S1x512 .f32) = V m c main_arg4 := by
  have hw := idx_facts t
  funext j
  unfold iblk
  rw [View.read_apply]
  show V m c main_arg4 _ = V m c main_arg4 j
  refine congrArg (V m c main_arg4) ?_
  funext a
  apply Fin.ext
  match a with
  | ⟨0, _⟩ => show win0_3.index t (0 : Fin 2) * 1 + 1 * (j 0).val = (j 0).val; omega
  | ⟨1, _⟩ => show win0_3.index t (1 : Fin 2) * 512 + 1 * (j 1).val = (j 1).val; omega

/-- Window 5 is its whole array at every band. -/
theorem blk5_whole (c : Dev nD) (t : Fin cfg0.N) : (iblk m c 5 t : Vec Ideal S512x512 .f32) = V m c main_arg5 := by
  have hw := idx_facts t
  funext j
  unfold iblk
  rw [View.read_apply]
  show V m c main_arg5 _ = V m c main_arg5 j
  refine congrArg (V m c main_arg5) ?_
  funext a
  apply Fin.ext
  match a with
  | ⟨0, _⟩ => show win0_5.index t (0 : Fin 2) * 512 + 1 * (j 0).val = (j 0).val; omega
  | ⟨1, _⟩ => show win0_5.index t (1 : Fin 2) * 512 + 1 * (j 1).val = (j 1).val; omega

/-- Window 6 is its whole array at every band. -/
theorem blk6_whole (c : Dev nD) (t : Fin cfg0.N) : (iblk m c 6 t : Vec Ideal S1x512 .f32) = V m c main_arg6 := by
  have hw := idx_facts t
  funext j
  unfold iblk
  rw [View.read_apply]
  show V m c main_arg6 _ = V m c main_arg6 j
  refine congrArg (V m c main_arg6) ?_
  funext a
  apply Fin.ext
  match a with
  | ⟨0, _⟩ => show win0_6.index t (0 : Fin 2) * 1 + 1 * (j 0).val = (j 0).val; omega
  | ⟨1, _⟩ => show win0_6.index t (1 : Fin 2) * 512 + 1 * (j 1).val = (j 1).val; omega

/-- The adjacency's block at band `t` is rows 1024·t .. 1024·t+1023. -/
theorem blk4_band (c : Dev nD) (t : Fin cfg0.N) (r : Fin 1024) (k : Fin 4096) (p : Fin 4096) (hp : p.val = 1024 * t.val + r.val) :
    (iblk m c 4 t : Vec Ideal S1024x4096 .bf16) (ix2 r k) = V m c main_arg2 (ix2 p k) := by
  have hw := idx_facts t
  unfold iblk
  rw [View.read_apply]
  show V m c main_arg2 _ = V m c main_arg2 (ix2 p k)
  refine congrArg (V m c main_arg2) ?_
  funext a
  apply Fin.ext
  match a with
  | ⟨0, _⟩ => show win0_4.index t (0 : Fin 2) * 1024 + 1 * r.val = p.val; omega
  | ⟨1, _⟩ => show win0_4.index t (1 : Fin 2) * 4096 + 1 * k.val = k.val; omega

/-! ## The two scratches, band after band -/

/-- The feature scratch from the first band on. -/
def feats (c : Dev nD) : Vec Ideal S4096x512 .bf16 := filled (k0_pay1 (V m c main_arg0)) (k0_pay2 (V m c main_arg1))

/-- It is the two feature arrays side by side. -/
theorem feats_eq (c : Dev nD) : feats m c = Dgi.sideBySide (V m c main_arg0) (V m c main_arg1) := by
  funext j
  obtain ⟨k, q, rfl⟩ : ∃ (k : Fin 4096) (q : Fin 512), j = ix2 k q := ⟨j 0, j 1, eq_ix2 j⟩
  unfold feats Dgi.sideBySide
  by_cases h : q.val < 256
  · have h' : ((ix2 k q : (⟨2, ![4096, 512]⟩ : Shape).Idx) 1).val < 256 := h
    rw [dif_pos h']
    exact (filled_left _ _ k ⟨q.val, h⟩ q (Nat.zero_add _).symm).trans (stage_x _ _)
  · have h' : ¬ ((ix2 k q : (⟨2, ![4096, 512]⟩ : Shape).Idx) 1).val < 256 := h
    rw [dif_neg h']
    exact (filled_right _ _ k ⟨q.val - 256, by have := q.isLt; omega⟩ q (by show q.val = 256 + (q.val - 256); omega)).trans (stage_xc _ _)

/-- The column-sum scratch after band `n`: zero plus the first band's sums, then one band's sums more each time. -/
def sums (c : Dev nD) : (n : ℕ) → n < cfg0.N → Vec Ideal S8x512 .f32
  | 0, h => k0_pay7 (iblk m c 4 ⟨0, h⟩) (feats m c) (V m c main_arg3) (V m c main_arg4) (k0_pay3 (F := Ideal))
  | n + 1, h => k0_pay7 (iblk m c 4 ⟨n + 1, h⟩) (feats m c) (V m c main_arg3) (V m c main_arg4) (sums c n (Nat.lt_of_succ_lt h))

/-- What the first band leaves. -/
theorem at_first (c : Dev nD) (t : Fin cfg0.N) (h0 : t.val % 4 = 0) (h1 : ¬t.val % 4 = 3) :
    (outsAt0 m c t.val t.isLt).1 = k0_pay5 (iblk m c 4 t) (feats m c) (V m c main_arg3) (V m c main_arg4)
    ∧ (outsAt0 m c t.val t.isLt).2.1 = k0_pay6 (iblk m c 4 t) (feats m c) (V m c main_arg3) (V m c main_arg4)
    ∧ (outsAt0 m c t.val t.isLt).2.2.2.1 = feats m c
    ∧ (outsAt0 m c t.val t.isLt).2.2.2.2
        = k0_pay7 (iblk m c 4 t) (feats m c) (V m c main_arg3) (V m c main_arg4) (k0_pay3 (F := Ideal)) := by
  rw [outsAt0_A m c t h0 h1]
  dsimp only
  rw [band7_A, band8_A, scratchX_A, sums_A, blk0_whole m c t, blk1_whole m c t, blk2_whole m c t, blk3_whole m c t]
  exact ⟨rfl, rfl, rfl, rfl⟩

/-- What a middle band leaves, over what the band before left in the scratches. -/
theorem at_middle (c : Dev nD) (t : Fin cfg0.N) (h0 : ¬t.val % 4 = 0) (h1 : ¬t.val % 4 = 3) :
    (outsAt0 m c t.val t.isLt).1 = k0_pay5 (iblk m c 4 t) (outsAt0 m c (t.val - 1) (Nat.lt_of_le_of_lt (Nat.sub_le _ _) t.isLt)).2.2.2.1 (V m c main_arg3) (V m c main_arg4)
    ∧ (outsAt0 m c t.val t.isLt).2.1 = k0_pay6 (iblk m c 4 t) (outsAt0 m c (t.val - 1) (Nat.lt_of_le_of_lt (Nat.sub_le _ _) t.isLt)).2.2.2.1 (V m c main_arg3) (V m c main_arg4)
    ∧ (outsAt0 m c t.val t.isLt).2.2.2.1 = (outsAt0 m c (t.val - 1) (Nat.lt_of_le_of_lt (Nat.sub_le _ _) t.isLt)).2.2.2.1
    ∧ (outsAt0 m c t.val t.isLt).2.2.2.2
        = k0_pay7 (iblk m c 4 t) (outsAt0 m c (t.val - 1) (Nat.lt_of_le_of_lt (Nat.sub_le _ _) t.isLt)).2.2.2.1 (V m c main_arg3) (V m c main_arg4)
            (outsAt0 m c (t.val - 1) (Nat.lt_of_le_of_lt (Nat.sub_le _ _) t.isLt)).2.2.2.2 := by
  rw [outsAt0_B m c t h0 h1]
  dsimp only
  rw [band7_B, band8_B, scratchX_B, sums_B, blk2_whole m c t, blk3_whole m c t]
  exact ⟨rfl, rfl, rfl, rfl⟩

/-- What the last band leaves, over what the band before left in the scratches. -/
theorem at_last (c : Dev nD) (t : Fin cfg0.N) (h0 : ¬t.val % 4 = 0) (h1 : t.val % 4 = 3) :
    (outsAt0 m c t.val t.isLt).1 = k0_pay5 (iblk m c 4 t) (outsAt0 m c (t.val - 1) (Nat.lt_of_le_of_lt (Nat.sub_le _ _) t.isLt)).2.2.2.1 (V m c main_arg3) (V m c main_arg4)
    ∧ (outsAt0 m c t.val t.isLt).2.1 = k0_pay6 (iblk m c 4 t) (outsAt0 m c (t.val - 1) (Nat.lt_of_le_of_lt (Nat.sub_le _ _) t.isLt)).2.2.2.1 (V m c main_arg3) (V m c main_arg4)
    ∧ (outsAt0 m c t.val t.isLt).2.2.1
        = k0_pay8 (k0_pay7 (iblk m c 4 t) (outsAt0 m c (t.val - 1) (Nat.lt_of_le_of_lt (Nat.sub_le _ _) t.isLt)).2.2.2.1 (V m c main_arg3) (V m c main_arg4)
            (outsAt0 m c (t.val - 1) (Nat.lt_of_le_of_lt (Nat.sub_le _ _) t.isLt)).2.2.2.2) (V m c main_arg6) (V m c main_arg5)
    ∧ (outsAt0 m c t.val t.isLt).2.2.2.1 = (outsAt0 m c (t.val - 1) (Nat.lt_of_le_of_lt (Nat.sub_le _ _) t.isLt)).2.2.2.1
    ∧ (outsAt0 m c t.val t.isLt).2.2.2.2
        = k0_pay7 (iblk m c 4 t) (outsAt0 m c (t.val - 1) (Nat.lt_of_le_of_lt (Nat.sub_le _ _) t.isLt)).2.2.2.1 (V m c main_arg3) (V m c main_arg4)
            (outsAt0 m c (t.val - 1) (Nat.lt_of_le_of_lt (Nat.sub_le _ _) t.isLt)).2.2.2.2 := by
  rw [outsAt0_C m c t h0 h1]
  dsimp only
  rw [band7_C, band8_C, readout_C, scratchX_C, sums_C, blk2_whole m c t, blk3_whole m c t, blk5_whole m c t, blk6_whole m c t]
  exact ⟨rfl, rfl, rfl, rfl, rfl⟩

/-- The scratches after every band: the features side by side, and the running sums. -/
theorem carried (c : Dev nD) : ∀ (n : ℕ) (h : n < cfg0.N),
    (outsAt0 m c n h).2.2.2.1 = feats m c ∧ (outsAt0 m c n h).2.2.2.2 = sums m c n h
  | 0, h => by
    obtain ⟨-, -, e3, e4⟩ := at_first m c ⟨0, h⟩ rfl (by dsimp only; omega)
    exact ⟨e3, e4⟩
  | n + 1, h => by
    have hN : cfg0.N = 4 := N_0
    have h0 : ¬(⟨n + 1, h⟩ : Fin cfg0.N).val % 4 = 0 := by dsimp only; omega
    obtain ⟨p1, p2⟩ := carried c n (Nat.lt_of_succ_lt h)
    by_cases h1 : (⟨n + 1, h⟩ : Fin cfg0.N).val % 4 = 3
    · obtain ⟨-, -, -, e3, e4⟩ := at_last m c ⟨n + 1, h⟩ h0 h1
      refine ⟨e3.trans p1, e4.trans ?_⟩
      show k0_pay7 _ (outsAt0 m c n _).2.2.2.1 _ _ (outsAt0 m c n _).2.2.2.2 = k0_pay7 _ (feats m c) _ _ (sums m c n _)
      rw [p1, p2]
    · obtain ⟨-, -, e3, e4⟩ := at_middle m c ⟨n + 1, h⟩ h0 h1
      refine ⟨e3.trans p1, e4.trans ?_⟩
      show k0_pay7 _ (outsAt0 m c n _).2.2.2.1 _ _ (outsAt0 m c n _).2.2.2.2 = k0_pay7 _ (feats m c) _ _ (sums m c n _)
      rw [p1, p2]

/-- Every band writes its rows of the clean encoding … -/
theorem clean_at (c : Dev nD) (t : Fin cfg0.N) :
    (outsAt0 m c t.val t.isLt).1 = k0_pay5 (iblk m c 4 t) (feats m c) (V m c main_arg3) (V m c main_arg4) := by
  have hN : cfg0.N = 4 := N_0
  by_cases h0 : t.val % 4 = 0
  · exact (at_first m c t h0 (by omega)).1
  · by_cases h1 : t.val % 4 = 3
    · rw [(at_last m c t h0 h1).1, (carried m c (t.val - 1) _).1]
    · rw [(at_middle m c t h0 h1).1, (carried m c (t.val - 1) _).1]

/-- … and of the corrupted one. -/
theorem corrupt_at (c : Dev nD) (t : Fin cfg0.N) :
    (outsAt0 m c t.val t.isLt).2.1 = k0_pay6 (iblk m c 4 t) (feats m c) (V m c main_arg3) (V m c main_arg4) := by
  have hN : cfg0.N = 4 := N_0
  by_cases h0 : t.val % 4 = 0
  · exact (at_first m c t h0 (by omega)).2.1
  · by_cases h1 : t.val % 4 = 3
    · rw [(at_last m c t h0 h1).2.1, (carried m c (t.val - 1) _).1]
    · rw [(at_middle m c t h0 h1).2.1, (carried m c (t.val - 1) _).1]

/-- The last band writes the summary read out of the running sums after all four bands. -/
theorem summary_at (c : Dev nD) (t : Fin cfg0.N) (h1 : t.val % 4 = 3) :
    (outsAt0 m c t.val t.isLt).2.2.1 = k0_pay8 (sums m c t.val t.isLt) (V m c main_arg6) (V m c main_arg5) := by
  have hN : cfg0.N = 4 := N_0
  have h0 : ¬t.val % 4 = 0 := by omega
  rw [(at_last m c t h0 h1).2.2.1, ← (at_last m c t h0 h1).2.2.2.2, (carried m c t.val t.isLt).2]

end Cert.KernelIdeal.Bands

end
-- ==== Proof.KernelFinal.lean ====
/-
  The band kernel's three result arrays after the run, each as one function of the argument arrays.

  Band `t` of the four writes rows 1024·t .. 1024·t+1023 of the two encoded arrays: row `r` of the band's block of the
  adjacency is row 1024·t+r of the adjacency itself, so the band's encoding at (r,h) is the whole-array encoding at
  (1024·t+r, h); the four bands tile the 4096 rows.  The running column sums after the last band are, on every
  sublane, zero plus the four bands' column sums in the order the bands are visited, and the summary written at the last
  band is the readout of those sums; its block is the whole [1,512] array.
-/
import proofs.«127692_g2000106255353042_pallasbulk_995_18_alg».proof.Proof.KernelValue

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Bands

open Cert.KernelIdeal Cert.KernelIdeal.Gen

/-! ## One band's encoding against the whole-array encoding -/

/-- Over variables: if the band's adjacency block `Ab` is rows 1024·tt.. of `A`, the encoding of the band's row `r`
    through columns `off..off+255` of the propagated features is the whole-array encoding at row 1024·tt+r. -/
theorem enc_rows (off : ℕ) (hoff : off + 256 ≤ 512) (Ab : Vec Ideal S1024x4096 .bf16) (A : Vec Ideal S4096x4096 .bf16)
    (xs : Vec Ideal S4096x512 .bf16) (W : Vec Ideal S256x512 .f32) (b : Vec Ideal S1x512 .f32) (tt : ℕ)
    (hA : ∀ (r : Fin 1024) (k : Fin 4096) (p : Fin 4096), p.val = 1024 * tt + r.val → Ab (ix2 r k) = A (ix2 p k))
    (r : Fin 1024) (p : Fin 4096) (h : Fin 512) (hp : p.val = 1024 * tt + r.val) :
    (∑ d : Fin 256, (∑ k : Fin 4096, Ab (ix2 r k) * xs (ix2 k (⟨off + d.val, by have := d.isLt; omega⟩ : Fin 512))) * W (ix2 d h))
        + b (ix2 (0 : Fin 1) h)
      = Dgi.propEnc A xs off hoff W b (ix2 p h) := by
  show _ = (∑ d : Fin 256, (∑ k : Fin 4096, A (ix2 p k) * xs (ix2 k (⟨off + d.val, by have := d.isLt; omega⟩ : Fin 512))) * W (ix2 d h))
        + b (ix2 (0 : Fin 1) h)
  refine congrArg (· + b (ix2 (0 : Fin 1) h)) ?_
  refine Finset.sum_congr rfl fun d _ => ?_
  refine congrArg (· * W (ix2 d h)) ?_
  refine Finset.sum_congr rfl fun k _ => ?_
  rw [hA r k p hp]

/-- The clean payload of a band at an index of the band's block is the whole-array clean encoding at the array index
    the block's index stands for. -/
theorem enc_clean_band (Ab : Vec Ideal S1024x4096 .bf16) (A : Vec Ideal S4096x4096 .bf16)
    (xs : Vec Ideal S4096x512 .bf16) (W : Vec Ideal S256x512 .f32) (b : Vec Ideal S1x512 .f32) (tt : ℕ)
    (hA : ∀ (r : Fin 1024) (k : Fin 4096) (p : Fin 4096), p.val = 1024 * tt + r.val → Ab (ix2 r k) = A (ix2 p k))
    (y : S1024x512.Idx) (i : S4096x512.Idx) (h0 : (i 0).val = 1024 * tt + (y 0).val) (h1 : (i 1).val = (y 1).val) :
    k0_pay5 Ab xs W b y = Dgi.propEnc A xs 0 (by decide) W b i := by
  obtain ⟨r, h, rfl⟩ : ∃ (r : Fin 1024) (h : Fin 512), y = ix2 r h := ⟨y 0, y 1, eq_ix2 y⟩
  obtain ⟨p, h', rfl⟩ : ∃ (p : Fin 4096) (h' : Fin 512), i = ix2 p h' := ⟨i 0, i 1, eq_ix2 i⟩
  have e : h' = h := Fin.ext h1
  subst e
  rw [enc_clean_apply]
  exact enc_rows 0 (by decide) Ab A xs W b tt hA r p h' h0

/-- The same for the corrupted payload. -/
theorem enc_corrupt_band (Ab : Vec Ideal S1024x4096 .bf16) (A : Vec Ideal S4096x4096 .bf16)
    (xs : Vec Ideal S4096x512 .bf16) (W : Vec Ideal S256x512 .f32) (b : Vec Ideal S1x512 .f32) (tt : ℕ)
    (hA : ∀ (r : Fin 1024) (k : Fin 4096) (p : Fin 4096), p.val = 1024 * tt + r.val → Ab (ix2 r k) = A (ix2 p k))
    (y : S1024x512.Idx) (i : S4096x512.Idx) (h0 : (i 0).val = 1024 * tt + (y 0).val) (h1 : (i 1).val = (y 1).val) :
    k0_pay6 Ab xs W b y = Dgi.propEnc A xs 256 (by decide) W b i := by
  obtain ⟨r, h, rfl⟩ : ∃ (r : Fin 1024) (h : Fin 512), y = ix2 r h := ⟨y 0, y 1, eq_ix2 y⟩
  obtain ⟨p, h', rfl⟩ : ∃ (p : Fin 4096) (h' : Fin 512), i = ix2 p h' := ⟨i 0, i 1, eq_ix2 i⟩
  have e : h' = h := Fin.ext h1
  subst e
  rw [enc_corrupt_apply]
  exact enc_rows 256 (by decide) Ab A xs W b tt hA r p h' h0

variable (m : (ℓ : Loc nD τ sig) → Buf (Elt Ideal) ℓ) (ρ : Dev nD → PrngReg)

/-! ## The two encoded arrays: what a band writes back, the blocks, the cover -/

/-- What band `t` writes back to the clean array is block `t` of the whole-array clean encoding. -/
theorem flushed7_eq (c : Dev nD) (t : Fin cfg0.N) :
    (dats (F := Ideal) m 0 c).flushed 7 t
      = ((cfg0.win 7).blk t).view.read (Elt Ideal) (Dgi.propEnc (V m c main_arg2) (Dgi.sideBySide (V m c main_arg0) (V m c main_arg1)) 0 (by decide) (V m c main_arg3) (V m c main_arg4)) := by
  have hw := idx_facts t
  rw [Value.flushed7, clean_at, feats_eq]
  funext y
  show k0_pay5 (iblk m c 4 t) (Dgi.sideBySide (V m c main_arg0) (V m c main_arg1)) (V m c main_arg3) (V m c main_arg4) y
    = Dgi.propEnc (V m c main_arg2) (Dgi.sideBySide (V m c main_arg0) (V m c main_arg1)) 0 (by decide) (V m c main_arg3) (V m c main_arg4)
        (((cfg0.win 7).blk t).view.emb y)
  refine enc_clean_band (iblk m c 4 t) (V m c main_arg2) (Dgi.sideBySide (V m c main_arg0) (V m c main_arg1)) (V m c main_arg3)
    (V m c main_arg4) t.val (fun r k p hp => blk4_band m c t r k p hp) y (((cfg0.win 7).blk t).view.emb y) ?_ ?_
  · show win0_7.index t (0 : Fin 2) * 1024 + 1 * (y 0).val = 1024 * t.val + (y 0).val
    omega
  · show win0_7.index t (1 : Fin 2) * 512 + 1 * (y 1).val = (y 1).val
    omega

/-- What band `t` writes back to the corrupted array is block `t` of the whole-array corrupted encoding. -/
theorem flushed8_eq (c : Dev nD) (t : Fin cfg0.N) :
    (dats (F := Ideal) m 0 c).flushed 8 t
      = ((cfg0.win 8).blk t).view.read (Elt Ideal) (Dgi.propEnc (V m c main_arg2) (Dgi.sideBySide (V m c main_arg0) (V m c main_arg1)) 256 (by decide) (V m c main_arg3) (V m c main_arg4)) := by
  have hw := idx_facts t
  rw [Value.flushed8, corrupt_at, feats_eq]
  funext y
  show k0_pay6 (iblk m c 4 t) (Dgi.sideBySide (V m c main_arg0) (V m c main_arg1)) (V m c main_arg3) (V m c main_arg4) y
    = Dgi.propEnc (V m c main_arg2) (Dgi.sideBySide (V m c main_arg0) (V m c main_arg1)) 256 (by decide) (V m c main_arg3) (V m c main_arg4)
        (((cfg0.win 8).blk t).view.emb y)
  refine enc_corrupt_band (iblk m c 4 t) (V m c main_arg2) (Dgi.sideBySide (V m c main_arg0) (V m c main_arg1)) (V m c main_arg3)
    (V m c main_arg4) t.val (fun r k p hp => blk4_band m c t r k p hp) y (((cfg0.win 8).blk t).view.emb y) ?_ ?_
  · show win0_8.index t (0 : Fin 2) * 1024 + 1 * (y 0).val = 1024 * t.val + (y 0).val
    omega
  · show win0_8.index t (1 : Fin 2) * 512 + 1 * (y 1).val = (y 1).val
    omega

/-- An index of the clean array is in band `t`'s block iff each coordinate is in the block's range on its axis. -/
theorem mem_blk7 (t : Fin cfg0.N) (i : S4096x512.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v0_0).slice (win0_7.rect t)).set ↔ _
  rw [View.set_slice_whole, Rect.mem_set_unit]
  exact Iff.rfl

/-- The same for the corrupted array. -/
theorem mem_blk8 (t : Fin cfg0.N) (i : S4096x512.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v0_1).slice (win0_8.rect t)).set ↔ _
  rw [View.set_slice_whole, Rect.mem_set_unit]
  exact Iff.rfl

/-- Row `i` of the clean array is written by band `i / 1024`. -/
theorem cover7 (i : S4096x512.Idx) :
    ∃ t : Fin cfg0.N, (cfg0.win 7).flush t = true ∧ i ∈ ((cfg0.win 7).blk t).view.set := by
  have hi0 : (i 0).val < 4096 := (i 0).isLt
  have hi1 : (i 1).val < 512 := (i 1).isLt
  have hN : cfg0.N = 4 := N_0
  obtain ⟨t, ht⟩ : ∃ t : Fin cfg0.N, t.val = (i 0).val / 1024 := ⟨⟨(i 0).val / 1024, by omega⟩, rfl⟩
  have hw := idx_facts t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 512 ≤ (i 1).val ∧ (i 1).val < win0_7.index t (1 : Fin 2) * 512 + 512
    omega

/-- Row `i` of the corrupted array is written by band `i / 1024`. -/
theorem cover8 (i : S4096x512.Idx) :
    ∃ t : Fin cfg0.N, (cfg0.win 8).flush t = true ∧ i ∈ ((cfg0.win 8).blk t).view.set := by
  have hi0 : (i 0).val < 4096 := (i 0).isLt
  have hi1 : (i 1).val < 512 := (i 1).isLt
  have hN : cfg0.N = 4 := N_0
  obtain ⟨t, ht⟩ : ∃ t : Fin cfg0.N, t.val = (i 0).val / 1024 := ⟨⟨(i 0).val / 1024, by omega⟩, rfl⟩
  have hw := idx_facts t
  refine ⟨t, flush0_8 t, ?_⟩
  rw [mem_blk8]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 512 ≤ (i 1).val ∧ (i 1).val < win0_8.index t (1 : Fin 2) * 512 + 512
    omega

/-- The clean array after the run: propagate-then-encode of the clean features. -/
theorem final7 (c : Dev nD) : (dats (F := Ideal) m 0 c).arrAt 7 cfg0.N
      = Dgi.propEnc (V m c main_arg2) (Dgi.sideBySide (V m c main_arg0) (V m c main_arg1)) 0 (by decide) (V m c main_arg3) (V m c main_arg4) :=
  (dats (F := Ideal) m 0 c).arrAt_eq_of_cover 7 _ (fun t _ => flushed7_eq m c t) cover7

/-- The corrupted array after the run: propagate-then-encode of the corrupted features. -/
theorem final8 (c : Dev nD) : (dats (F := Ideal) m 0 c).arrAt 8 cfg0.N
      = Dgi.propEnc (V m c main_arg2) (Dgi.sideBySide (V m c main_arg0) (V m c main_arg1)) 256 (by decide) (V m c main_arg3) (V m c main_arg4) :=
  (dats (F := Ideal) m 0 c).arrAt_eq_of_cover 8 _ (fun t _ => flushed8_eq m c t) cover8

/-! ## The summary: the running sums after the last band, the readout, the one block -/

/-- The column sum of band `t`'s clean payload is the column sum of rows 1024·t .. 1024·t+1023 of the whole-array
    clean encoding. -/
theorem band_sum (c : Dev nD) (t : Fin cfg0.N) (t' : Fin 4) (ht : t'.val = t.val) (h : Fin 512) :
    ∑ r : Fin 1024, k0_pay5 (iblk m c 4 t) (feats m c) (V m c main_arg3) (V m c main_arg4) (ix2 r h)
      = Dgi.bandSum (Dgi.propEnc (V m c main_arg2) (Dgi.sideBySide (V m c main_arg0) (V m c main_arg1)) 0 (by decide) (V m c main_arg3) (V m c main_arg4)) t' h := by
  unfold Dgi.bandSum
  refine Finset.sum_congr rfl fun r _ => ?_
  rw [feats_eq]
  exact enc_clean_band (iblk m c 4 t) (V m c main_arg2) (Dgi.sideBySide (V m c main_arg0) (V m c main_arg1)) (V m c main_arg3)
    (V m c main_arg4) t.val (fun r k p hp => blk4_band m c t r k p hp) (ix2 r h)
    (ix2 (⟨1024 * t'.val + r.val, by have := t'.isLt; have := r.isLt; omega⟩ : Fin 4096) h)
    (by show 1024 * t'.val + r.val = 1024 * t.val + r.val; omega) rfl

/-- The running sums after the fourth band: on every sublane, zero plus the four bands' column sums in order. -/
theorem sums_last (c : Dev nD) (h3 : 3 < cfg0.N) (s : Fin 8) (h : Fin 512) :
    sums m c 3 h3 (ix2 s h) = Dgi.bandAcc (Dgi.propEnc (V m c main_arg2) (Dgi.sideBySide (V m c main_arg0) (V m c main_arg1)) 0 (by decide) (V m c main_arg3) (V m c main_arg4)) h := by
  have h2 : 2 < cfg0.N := Nat.lt_of_succ_lt h3
  have h1 : 1 < cfg0.N := Nat.lt_of_succ_lt h2
  have h0 : 0 < cfg0.N := Nat.lt_of_succ_lt h1
  have e3 : sums m c 3 h3
      = k0_pay7 (iblk m c 4 ⟨3, h3⟩) (feats m c) (V m c main_arg3) (V m c main_arg4) (sums m c 2 h2) := rfl
  have e2 : sums m c 2 h2
      = k0_pay7 (iblk m c 4 ⟨2, h2⟩) (feats m c) (V m c main_arg3) (V m c main_arg4) (sums m c 1 h1) := rfl
  have e1 : sums m c 1 h1
      = k0_pay7 (iblk m c 4 ⟨1, h1⟩) (feats m c) (V m c main_arg3) (V m c main_arg4) (sums m c 0 h0) := rfl
  have e0 : sums m c 0 h0
      = k0_pay7 (iblk m c 4 ⟨0, h0⟩) (feats m c) (V m c main_arg3) (V m c main_arg4) (k0_pay3 (F := Ideal)) := rfl
  rw [e3, acc_apply, e2, acc_apply, e1, acc_apply, e0, acc_apply, start_zero,
    band_sum m c ⟨0, h0⟩ 0 rfl h, band_sum m c ⟨1, h1⟩ 1 rfl h, band_sum m c ⟨2, h2⟩ 2 rfl h, band_sum m c ⟨3, h3⟩ 3 rfl h]
  rfl

/-- Over variables: the readout payload of running sums that are, on every sublane, the accumulated column sums of
    `z`, is the band-by-band summary of `z`. -/
theorem readout_point (S : Vec Ideal S8x512 .f32) (bp : Vec Ideal S1x512 .f32) (wp : Vec Ideal S512x512 .f32)
    (z : Vec Ideal S4096x512 .f32) (hS : ∀ (s : Fin 8) (h : Fin 512), S (ix2 s h) = Dgi.bandAcc z h)
    (y i : S1x512.Idx) (h1 : (i 1).val = (y 1).val) :
    k0_pay8 S bp wp y = Dgi.bandReadout z wp bp i := by
  obtain ⟨u, j, rfl⟩ : ∃ (u : Fin 1) (j : Fin 512), y = ix2 u j := ⟨y 0, y 1, eq_ix2 y⟩
  obtain ⟨u', j', rfl⟩ : ∃ (u' : Fin 1) (j' : Fin 512), i = ix2 u' j' := ⟨i 0, i 1, eq_ix2 i⟩
  have e : j' = j := Fin.ext h1
  subst e
  have eu : u = 0 := Subsingleton.elim _ _
  subst eu
  rw [readout_apply]
  show bp (ix2 (0 : Fin 1) j') + ∑ h : Fin 512, Ideal.logistic ((∑ s : Fin 8, S (ix2 s h)) * Dgi.scale) * wp (ix2 j' h)
    = bp (ix2 (0 : Fin 1) j') + ∑ h : Fin 512, Ideal.logistic ((∑ _s : Fin 8, Dgi.bandAcc z h) * Dgi.scale) * wp (ix2 j' h)
  simp only [hS]

/-- What the last band writes back to the summary is the (whole) block of the band-by-band summary. -/
theorem flushed9_eq (c : Dev nD) (t : Fin cfg0.N) (hf : (cfg0.win 9).flush t = true) :
    (dats (F := Ideal) m 0 c).flushed 9 t
      = ((cfg0.win 9).blk t).view.read (Elt Ideal) (Dgi.bandReadout (Dgi.propEnc (V m c main_arg2) (Dgi.sideBySide (V m c main_arg0) (V m c main_arg1)) 0 (by decide) (V m c main_arg3) (V m c main_arg4)) (V m c main_arg5) (V m c main_arg6)) := by
  have h3 : t.val % 4 = 3 := (flush0_9 t).mp hf
  have hN : cfg0.N = 4 := N_0
  have hw := idx_facts t
  obtain ⟨n, hn⟩ := t
  have hn3 : n = 3 := by
    have h3' : n % 4 = 3 := h3
    omega
  subst hn3
  rw [Value.flushed9, summary_at m c ⟨3, hn⟩ h3]
  funext y
  show k0_pay8 (sums m c 3 hn) (V m c main_arg6) (V m c main_arg5) y
    = Dgi.bandReadout (Dgi.propEnc (V m c main_arg2) (Dgi.sideBySide (V m c main_arg0) (V m c main_arg1)) 0 (by decide) (V m c main_arg3) (V m c main_arg4)) (V m c main_arg5) (V m c main_arg6)
        (((cfg0.win 9).blk ⟨3, hn⟩).view.emb y)
  refine readout_point (sums m c 3 hn) (V m c main_arg6) (V m c main_arg5) _ (fun s h => sums_last m c hn s h) y
    (((cfg0.win 9).blk ⟨3, hn⟩).view.emb y) ?_
  show win0_9.index ⟨3, hn⟩ (1 : Fin 2) * 512 + 1 * (y 1).val = (y 1).val
  omega

/-- An index of the summary is in band `t`'s block iff each coordinate is in the block's range on its axis. -/
theorem mem_blk9 (t : Fin cfg0.N) (i : S1x512.Idx) :
    i ∈ ((cfg0.win 9).blk t).view.set ↔ ∀ a : Fin 2, win0_9.index t a * S1x512.size a ≤ (i a).val
      ∧ (i a).val < win0_9.index t a * S1x512.size a + S1x512.size a := by
  show i ∈ ((View.whole main_v0_2).slice (win0_9.rect t)).set ↔ _
  rw [View.set_slice_whole, Rect.mem_set_unit]
  exact Iff.rfl

/-- Every index of the summary is written by the last band. -/
theorem cover9 (i : S1x512.Idx) :
    ∃ t : Fin cfg0.N, (cfg0.win 9).flush t = true ∧ i ∈ ((cfg0.win 9).blk t).view.set := by
  have hi0 : (i 0).val < 1 := (i 0).isLt
  have hi1 : (i 1).val < 512 := (i 1).isLt
  have hN : cfg0.N = 4 := N_0
  obtain ⟨t, ht⟩ : ∃ t : Fin cfg0.N, t.val = 3 := ⟨⟨3, by omega⟩, rfl⟩
  have hw := idx_facts t
  refine ⟨t, (flush0_9 t).mpr (by omega), ?_⟩
  rw [mem_blk9]
  intro a
  match a with
  | ⟨0, _⟩ =>
    show win0_9.index t (0 : Fin 2) * 1 ≤ (i 0).val ∧ (i 0).val < win0_9.index t (0 : Fin 2) * 1 + 1
    omega
  | ⟨1, _⟩ =>
    show win0_9.index t (1 : Fin 2) * 512 ≤ (i 1).val ∧ (i 1).val < win0_9.index t (1 : Fin 2) * 512 + 512
    omega

/-- The summary after the run: the band-by-band readout of the clean encoding. -/
theorem final9 (c : Dev nD) : (dats (F := Ideal) m 0 c).arrAt 9 cfg0.N
      = Dgi.bandReadout (Dgi.propEnc (V m c main_arg2) (Dgi.sideBySide (V m c main_arg0) (V m c main_arg1)) 0 (by decide) (V m c main_arg3) (V m c main_arg4)) (V m c main_arg5) (V m c main_arg6) :=
  (dats (F := Ideal) m 0 c).arrAt_eq_of_cover 9 _ (fun t hf => flushed9_eq m c t hf) cover9

/-! ## The run -/

/-- Every weakly fair execution of the kernel ends with the three result arrays at these functions of the argument
    arrays, and the argument arrays unchanged. -/
theorem run : θ_run defs (onTc (τ := τ) (main (F := Ideal))) ⟨m, fun _ => 0, ρ⟩ fun r => ∀ c : Dev nD,
      r.2.mem ((c : Thread nD τ).loc main_v0_0) = Dgi.propEnc (V m c main_arg2) (Dgi.sideBySide (V m c main_arg0) (V m c main_arg1)) 0 (by decide) (V m c main_arg3) (V m c main_arg4)
      ∧ r.2.mem ((c : Thread nD τ).loc main_v0_2) = Dgi.bandReadout (Dgi.propEnc (V m c main_arg2) (Dgi.sideBySide (V m c main_arg0) (V m c main_arg1)) 0 (by decide) (V m c main_arg3) (V m c main_arg4)) (V m c main_arg5) (V m c main_arg6)
      ∧ r.2.mem ((c : Thread nD τ).loc main_v0_1) = Dgi.propEnc (V m c main_arg2) (Dgi.sideBySide (V m c main_arg0) (V m c main_arg1)) 256 (by decide) (V m c main_arg3) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(Value.post7 m r h c).trans (final7 m c),
      (Value.post9 m r h c).trans (final9 m c),
      (Value.post8 m r h c).trans (final8 m c),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c⟩)
    (run_main m ρ)

end Cert.KernelIdeal.Bands

end
-- ==== Proof.RefRun.lean ====
/-
  The reference program's run, read as a whole.

  The program is twelve short stretches of array bookkeeping (pads by nothing, format changes, two concatenations, one
  transpose), three tiled computations, and two closing slices.  Its run ends with every array that outlives a tiled
  computation at a known content: the fold of the stretches and of the three computations' write-backs, from the memory
  the program was started in.  The first theorem states that for the three results and the seven arguments.  The
  equations after it say, over the extended reals, what each tiled computation finds in its inputs — the two feature
  arrays one on top of the other, the encoder weights, the adjacency, the bias written twice side by side, the projection
  weights transposed, the projection bias, and what the computation before it left — and what the closing slices
  leave: the left and the right half of the second computation's first output, and the third computation's output.
-/
import proofs.«127692_g2000106255353042_pallasbulk_995_18_alg».proof.Proof.Gen.ReferenceIdeal.Frame
import proofs.«127692_g2000106255353042_pallasbulk_995_18_alg».proof.Proof.DgiSpec
import Idealize.ShloMosaic.Lib.KernelVsHost
import Idealize.ShloMosaic.Lib.ValueLayout

set_option maxRecDepth 16384

noncomputable section

namespace Cert.ReferenceIdeal.RefRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ReferenceIdeal.Gen

/-! ## The run -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the three result arrays end at the last
    boundary's contents and the seven argument arrays end as they were started. -/
theorem run : θ_run defs (onTc (τ := τ) (main (F := F))) ⟨m, fun _ => 0, ρ⟩ (fun r => ∀ c : Dev nD,
      r.2.mem ((c.tc : Thread nD τ).loc main_v15) = Gen.W16 m ρ c (Proc.devRef .tc main_v15)
      ∧ r.2.mem ((c.tc : Thread nD τ).loc main_v14) = Gen.W16 m ρ c (Proc.devRef .tc main_v14)
      ∧ r.2.mem ((c.tc : Thread nD τ).loc main_v16) = Gen.W16 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v15 (by decide)),
       h c _ (mem_uc main_v14 (by decide)),
       h c _ (mem_uc main_v16 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c)⟩)

end Run

/-! ## The bookkeeping operations read at an index -/

section Reading

/-- A pad by nothing on every side of a matrix is the matrix. -/
theorem pad_none {α : Type} {n0 n1 : Nat} (x : (⟨2, ![n0, n1]⟩ : Shape).Idx → α) {u : Shape} (v : u.Idx → α)
    (h : (⟨2, ![n0, n1]⟩ : Shape).Pads ![0, 0] ![0, 0] ![0, 0] ⟨2, ![n0, n1]⟩) (hu : 0 < u.numel) :
    pad ⟨2, ![n0, n1]⟩ ![0, 0] ![0, 0] ![0, 0] x v h hu = x := by
  funext j
  refine pad_apply_of_inside _ _ _ x v h hu j j fun a => ?_
  match a with
  | ⟨0, _⟩ => show (j 0).val = 0 + (j 0).val * (0 + 1); omega
  | ⟨1, _⟩ => show (j 1).val = 0 + (j 1).val * (0 + 1); omega

/-- Two [4096,256] arrays, each padded by nothing and narrowed, joined along the rows: rows below 4096 read the first,
    the rows from 4096 on read the second 4096 rows up. -/
theorem stacked (x xc : FVec Ideal S4096x256 .f32) (u0 u1 : FVec Ideal S_ .f32) :
    concatenate S8192x256 0
      [⟨S4096x256, truncf .bf16 (pad S4096x256 ![0, 0] ![0, 0] ![0, 0] x u0 pads_S4096x256_S4096x256_000_000 h_S_) bitsLt_bf16_f32⟩,
       ⟨S4096x256, truncf .bf16 (pad S4096x256 ![0, 0] ![0, 0] ![0, 0] xc u1 pads_S4096x256_S4096x256_000_000 h_S_) bitsLt_bf16_f32⟩]
      concatenates_S4096x256_S4096x256_S8192x256_d0 = Dgi.stack x xc := by
  rw [pad_none x u0, pad_none xc u1]
  funext j
  unfold Dgi.stack
  by_cases h : (j 0).val < 4096
  · rw [dif_pos h]
    refine (concatenate_pair_apply_left (t := S8192x256) (s₁ := S4096x256) (s₂ := S4096x256) (0 : Fin 2) _ _
      concatenates_S4096x256_S4096x256_S8192x256_d0 j rfl (ix2 (n0 := 4096) (n1 := 256) ⟨(j 0).val, h⟩ (j 1)) fun b => ?_).trans ?_
    · match b with
      | ⟨0, _⟩ => rfl
      | ⟨1, _⟩ => rfl
    · exact truncf_apply x bitsLt_bf16_f32 _
  · rw [dif_neg h]
    have hj := idx2_lt0 j
    refine (concatenate_pair_apply_right (t := S8192x256) (s₁ := S4096x256) (s₂ := S4096x256) (0 : Fin 2) _ _
      concatenates_S4096x256_S4096x256_S8192x256_d0 j rfl rfl (ix2 (n0 := 4096) (n1 := 256) ⟨(j 0).val - 4096, by omega⟩ (j 1))
      (fun b hb => ?_) ?_).trans ?_
    · match b with
      | ⟨0, _⟩ => exact absurd rfl hb
      | ⟨1, _⟩ => rfl
    · show (j 0).val - 4096 + 4096 = (j 0).val
      omega
    · exact truncf_apply xc bitsLt_bf16_f32 _

/-- A [1,512] row padded by nothing and joined to itself along the columns: columns below 512 read it, the columns from
    512 on read it 512 columns back. -/
theorem doubled (b : FVec Ideal S1x512 .f32) (u : FVec Ideal S_ .f32) :
    concatenate S1x1024 1
      [⟨S1x512, pad S1x512 ![0, 0] ![0, 0] ![0, 0] b u pads_S1x512_S1x512_000_000 h_S_⟩,
       ⟨S1x512, pad S1x512 ![0, 0] ![0, 0] ![0, 0] b u pads_S1x512_S1x512_000_000 h_S_⟩]
      concatenates_S1x512_S1x512_S1x1024_d1 = Dgi.twice b := by
  rw [pad_none b u]
  funext j
  unfold Dgi.twice
  by_cases h : (j 1).val < 512
  · rw [dif_pos h]
    refine concatenate_pair_apply_left (t := S1x1024) (s₁ := S1x512) (s₂ := S1x512) (1 : Fin 2) _ _
      concatenates_S1x512_S1x512_S1x1024_d1 j rfl (ix2 (n0 := 1) (n1 := 512) (j 0) ⟨(j 1).val, h⟩) fun a => ?_
    match a with
    | ⟨0, _⟩ => rfl
    | ⟨1, _⟩ => rfl
  · rw [dif_neg h]
    have hj := idx2_lt1 j
    refine concatenate_pair_apply_right (t := S1x1024) (s₁ := S1x512) (s₂ := S1x512) (1 : Fin 2) _ _
      concatenates_S1x512_S1x512_S1x1024_d1 j rfl rfl (ix2 (n0 := 1) (n1 := 512) (j 0) ⟨(j 1).val - 512, by omega⟩)
      (fun a ha => ?_) ?_
    · match a with
      | ⟨0, _⟩ => rfl
      | ⟨1, _⟩ => exact absurd rfl ha
    · show (j 1).val - 512 + 512 = (j 1).val
      omega

/-- A [512,512] array transposed, then padded by nothing, reads the array with the two coordinates exchanged. -/
theorem flipped (w : FVec Ideal S512x512 .f32) (u : FVec Ideal S_ .f32) :
    pad S512x512 ![0, 0] ![0, 0] ![0, 0] (transpose S512x512 [1, 0] w transposes_S512x512_S512x512_1_0) u
      pads_S512x512_S512x512_000_000 h_S_ = Dgi.transposed w := by
  rw [pad_none _ u]
  funext j
  obtain ⟨p, q, rfl⟩ : ∃ (p q : Fin 512), j = ix2 p q := ⟨j 0, j 1, eq_ix2 j⟩
  exact transpose_ix2_apply w transposes_S512x512_S512x512_1_0 p q

end Reading

section Halves

/-- The first 512 columns of a [4096,1024] array. -/
theorem left_cols (z : FVec Ideal S4096x1024 .f32) :
    extractStridedSlice S4096x512 ![0, 0] z slices_S4096x1024_S4096x512_0_0 = Dgi.leftHalf z := by
  funext j
  have hj := idx2_lt1 j
  refine extractStridedSlice_apply (s := S4096x1024) (t := S4096x512) ![0, 0] z slices_S4096x1024_S4096x512_0_0 j
    (ix2 (n0 := 4096) (n1 := 1024) (j 0) ⟨(j 1).val, by omega⟩) fun a => ?_
  match a with
  | ⟨0, _⟩ => show (j 0).val = 0 + (j 0).val; omega
  | ⟨1, _⟩ => show (j 1).val = 0 + (j 1).val; omega

/-- The last 512 columns of a [4096,1024] array. -/
theorem right_cols (z : FVec Ideal S4096x1024 .f32) :
    extractStridedSlice S4096x512 ![0, 512] z slices_S4096x1024_S4096x512_0_512 = Dgi.rightHalf z := by
  funext j
  have hj := idx2_lt1 j
  refine extractStridedSlice_apply (s := S4096x1024) (t := S4096x512) ![0, 512] z slices_S4096x1024_S4096x512_0_512 j
    (ix2 (n0 := 4096) (n1 := 1024) (j 0) ⟨512 + (j 1).val, by omega⟩) fun a => ?_
  match a with
  | ⟨0, _⟩ => show (j 0).val = 0 + (j 0).val; omega
  | ⟨1, _⟩ => rfl

end Halves

/-! ## What each tiled computation finds in its inputs -/

section Contents

variable (m : (ℓ : Loc nD τ sig) → Buf (Elt Ideal) ℓ) (ρ : Dev nD → PrngReg) (c : Dev nD)

/-- The first computation's second input is the encoder weights: a pad by nothing and a format change away. -/
theorem in0_w : Gen.V12 (F := Ideal) m ρ c main_v6 = m ((c.tc : Thread nD τ).loc main_arg3) := by
  show StableHlo.after hostOps0_11 (StableHlo.after hostOps0_10 (StableHlo.after hostOps0_9 (StableHlo.after hostOps0_8
    (StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))))))) (Proc.devRef .tc main_v6) = _
  simp only [hostOps0, hostOps0_1, hostOps0_2, hostOps0_3, hostOps0_4, hostOps0_5, hostOps0_6, hostOps0_7, hostOps0_8,
    hostOps0_9, hostOps0_10, hostOps0_11]
  after_results
  exact pad_none (m ((c.tc : Thread nD τ).loc main_arg3)) _ pads_S256x512_S256x512_000_000 h_S_

/-- The first computation's first input is the clean features on top of the corrupted ones. -/
theorem in0_x : Gen.V12 (F := Ideal) m ρ c main_v4
    = Dgi.stack (m ((c.tc : Thread nD τ).loc main_arg0)) (m ((c.tc : Thread nD τ).loc main_arg1)) := by
  show StableHlo.after hostOps0_11 (StableHlo.after hostOps0_10 (StableHlo.after hostOps0_9 (StableHlo.after hostOps0_8
    (StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))))))) (Proc.devRef .tc main_v4) = _
  simp only [hostOps0, hostOps0_1, hostOps0_2, hostOps0_3, hostOps0_4, hostOps0_5, hostOps0_6, hostOps0_7, hostOps0_8,
    hostOps0_9, hostOps0_10, hostOps0_11]
  after_results
  exact stacked (m ((c.tc : Thread nD τ).loc main_arg0)) (m ((c.tc : Thread nD τ).loc main_arg1)) _ _

/-- The second computation's first input is the adjacency: nothing before it writes that array. -/
theorem in1_A : Gen.V13 (F := Ideal) m ρ c main_arg2 = m ((c.tc : Thread nD τ).loc main_arg2) := by
  refine (W13_of_ne m ρ c main_arg2 (by decide)).trans ?_
  show StableHlo.after hostOps0_11 (StableHlo.after hostOps0_10 (StableHlo.after hostOps0_9 (StableHlo.after hostOps0_8
    (StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))))))) (Proc.devRef .tc main_arg2) = _
  simp only [hostOps0, hostOps0_1, hostOps0_2, hostOps0_3, hostOps0_4, hostOps0_5, hostOps0_6, hostOps0_7, hostOps0_8,
    hostOps0_9, hostOps0_10, hostOps0_11]
  after_results

/-- The second computation's second input is what the first computation's write-backs left in its output. -/
theorem in1_h : Gen.V13 (F := Ideal) m ρ c main_v12 = (Gen.dat0 (Gen.V12 m ρ) c).arrAt 2 cfg0.N :=
  W13_arr m ρ c 2

/-- The second computation's third input is the encoder bias twice, side by side. -/
theorem in1_b : Gen.V13 (F := Ideal) m ρ c main_v8 = Dgi.twice (m ((c.tc : Thread nD τ).loc main_arg4)) := by
  refine (W13_of_ne m ρ c main_v8 (by decide)).trans ?_
  show StableHlo.after hostOps0_11 (StableHlo.after hostOps0_10 (StableHlo.after hostOps0_9 (StableHlo.after hostOps0_8
    (StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))))))) (Proc.devRef .tc main_v8) = _
  simp only [hostOps0, hostOps0_1, hostOps0_2, hostOps0_3, hostOps0_4, hostOps0_5, hostOps0_6, hostOps0_7, hostOps0_8,
    hostOps0_9, hostOps0_10, hostOps0_11]
  after_results
  exact doubled (m ((c.tc : Thread nD τ).loc main_arg4)) _

/-- The third computation's first input is what the second computation's write-backs left in its second output. -/
theorem in2_p : Gen.V14 (F := Ideal) m ρ c main_v13_1 = (Gen.dat1 (Gen.V13 m ρ) c).arrAt 4 cfg1.N :=
  W14_arr m ρ c 4

/-- The third computation's second input is the projection weights with the two axes exchanged. -/
theorem in2_w : Gen.V14 (F := Ideal) m ρ c main_v10 = Dgi.transposed (m ((c.tc : Thread nD τ).loc main_arg5)) := by
  refine (W14_of_ne m ρ c main_v10 (by decide)).trans ((W13_of_ne m ρ c main_v10 (by decide)).trans ?_)
  show StableHlo.after hostOps0_11 (StableHlo.after hostOps0_10 (StableHlo.after hostOps0_9 (StableHlo.after hostOps0_8
    (StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))))))) (Proc.devRef .tc main_v10) = _
  simp only [hostOps0, hostOps0_1, hostOps0_2, hostOps0_3, hostOps0_4, hostOps0_5, hostOps0_6, hostOps0_7, hostOps0_8,
    hostOps0_9, hostOps0_10, hostOps0_11]
  after_results
  exact flipped (m ((c.tc : Thread nD τ).loc main_arg5)) _

/-- The third computation's third input is the projection bias. -/
theorem in2_b : Gen.V14 (F := Ideal) m ρ c main_v11 = m ((c.tc : Thread nD τ).loc main_arg6) := by
  refine (W14_of_ne m ρ c main_v11 (by decide)).trans ((W13_of_ne m ρ c main_v11 (by decide)).trans ?_)
  show StableHlo.after hostOps0_11 (StableHlo.after hostOps0_10 (StableHlo.after hostOps0_9 (StableHlo.after hostOps0_8
    (StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))))))) (Proc.devRef .tc main_v11) = _
  simp only [hostOps0, hostOps0_1, hostOps0_2, hostOps0_3, hostOps0_4, hostOps0_5, hostOps0_6, hostOps0_7, hostOps0_8,
    hostOps0_9, hostOps0_10, hostOps0_11]
  after_results
  exact pad_none (m ((c.tc : Thread nD τ).loc main_arg6)) _ pads_S1x512_S1x512_000_000 h_S_

end Contents

/-! ## What the closing slices leave -/

section Results

variable (m : (ℓ : Loc nD τ sig) → Buf (Elt Ideal) ℓ) (ρ : Dev nD → PrngReg) (c : Dev nD)

/-- The second computation's first output, as the closing slices find it. -/
theorem tail_in : Gen.W15 (F := Ideal) m ρ c (Proc.devRef .tc main_v13_0) = (Gen.dat1 (Gen.V13 m ρ) c).arrAt 3 cfg1.N :=
  (W15_of_ne m ρ c main_v13_0 (by decide)).trans (W14_arr m ρ c 3)

/-- The first result is the left half of the second computation's first output. -/
theorem res_v15 : Gen.W16 (F := Ideal) m ρ c (Proc.devRef .tc main_v15)
    = Dgi.leftHalf ((Gen.dat1 (Gen.V13 m ρ) c).arrAt 3 cfg1.N) := by
  show StableHlo.after hostOps3 (W15 m ρ c) (Proc.devRef .tc main_v15) = _
  simp only [hostOps3]
  after_results
  rw [tail_in]
  exact left_cols _

/-- The third result is the right half of the second computation's first output. -/
theorem res_v16 : Gen.W16 (F := Ideal) m ρ c (Proc.devRef .tc main_v16)
    = Dgi.rightHalf ((Gen.dat1 (Gen.V13 m ρ) c).arrAt 3 cfg1.N) := by
  show StableHlo.after hostOps3 (W15 m ρ c) (Proc.devRef .tc main_v16) = _
  simp only [hostOps3]
  after_results
  rw [tail_in]
  exact right_cols _

/-- The second result is what the third computation's write-backs left in its output: the closing slices write elsewhere. -/
theorem res_v14 : Gen.W16 (F := Ideal) m ρ c (Proc.devRef .tc main_v14) = (Gen.dat2 (Gen.V14 m ρ) c).arrAt 3 cfg2.N := by
  show StableHlo.after hostOps3 (W15 m ρ c) (Proc.devRef .tc main_v14) = _
  simp only [hostOps3]
  after_results
  exact W15_arr m ρ c 3

end Results

end Cert.ReferenceIdeal.RefRun

end
-- ==== Proof.RefFeat.lean ====
/-
  The encoder stage, read as one function of its two input arrays.

  The stacked features are an [8192,256] array: the clean rows on top, the corrupted rows below. The stage multiplies
  it by the [256,512] weights one band of 1024 rows at a time, eight bands in all, and lays the eight [1024,512]
  products out in a [4096,1024] array: band t goes to row block t mod 4 and column block t div 4, so the clean
  half fills columns 0..511 and the corrupted half columns 512..1023.

  Entry (p, q) of band t's product is the sum over d of stacked (1024·t + p, d) times weights (d, q); narrowing the
  product's format is the identity on exact values. An output entry (r, col) lies in the band
  t = 4·(col div 512) + r div 1024 at p = r mod 1024, q = col mod 512, and 1024·t + p = 4096·(col div 512) + r:
  this is the function `Dgi.featOut`. The eight blocks tile the output, so after the last band the whole
  array is that function.
-/
import proofs.«127692_g2000106255353042_pallasbulk_995_18_alg».proof.Proof.Gen.ReferenceIdeal.Frame
import proofs.«127692_g2000106255353042_pallasbulk_995_18_alg».proof.Proof.DgiSpec
import proofs.«127692_g2000106255353042_pallasbulk_995_18_alg».proof.Proof.LibPlainDot
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Feat

open Cert.ReferenceIdeal Cert.ReferenceIdeal.Gen

theorem zeros2 : (![0, 0] : Fin 2 → Nat) = fun _ => 0 := funext fun a => by fin_cases a <;> rfl

/-- One tile of the encoder: entry (p, q) of the stored block is the inner product of row p of the feature block
    with column q of the weights; rounding the product to the narrower format changes nothing on exact values. -/
theorem tile_apply (x0 : FVec Ideal S1024x256 .bf16) (x1 : FVec Ideal S256x512 .bf16) (p : Fin 1024) (q : Fin 512) :
    k0_pay1 (F := Ideal) x0 x1 (ix2 p q) = ∑ d : Fin 256, x0 (ix2 p d) * x1 (ix2 d q) := by
  unfold k0_pay1
  show FloatOps.matmul dot_S1024x256_S256x512_S1024x512_1_0_0_1_n_n none (shapeCast S1024x256 x0 _) (shapeCast S256x512 x1 _)
    (constant S1024x512 .f32 0x00000000#32) (ix2 p q) = _
  rw [shapeCast_self, shapeCast_self]
  exact PlainDot.matmul_zero_plain _ rfl rfl rfl rfl rfl rfl none x0 x1 (ix2 p q)

/-- Where each window's block sits at grid point t. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val % 4 ∧ win0_2.index t (1 : Fin 2) = t.val / 4 :=
  (by decide +kernel : ∀ t : Fin grid0.N, _)

variable (V : (c : Dev nD) → (b : Ref sig .tc) → Buf (Elt Ideal) ((c : Thread nD τ).loc b))

/-- Row p of the feature block at point t is row 1024·t + p of the stacked features. -/
theorem rows_block_apply (c : Dev nD) (t : Fin cfg0.N) (x : S1024x256.Idx) (k : S8192x256.Idx)
    (hk0 : (k 0).val = 1024 * t.val + (x 0).val) (hk1 : (k 1).val = (x 1).val) :
    (iblk0 (F := Ideal) V c 0 t : Vec Ideal S1024x256 .bf16) x = (V c main_v4 : S8192x256.Idx → Elt Ideal .bf16) k := by
  obtain ⟨e0, e1, -⟩ := block_indices t
  unfold iblk0
  rw [View.read_apply]
  show V c main_v4 _ = V c main_v4 _
  refine congrArg (V c main_v4) ?_
  funext a
  apply Fin.ext
  match a with
  | ⟨0, _⟩ => show win0_0.index t 0 * 1024 + 1 * (x 0).val = (k 0).val; rw [e0, hk0]; omega
  | ⟨1, _⟩ => show win0_0.index t 1 * 256 + 1 * (x 1).val = (k 1).val; rw [e1, hk1]; omega

/-- The weights' block is the whole array at every point. -/
theorem weights_block_apply (c : Dev nD) (t : Fin cfg0.N) (x : S256x512.Idx) (k : S256x512.Idx)
    (hk0 : (k 0).val = (x 0).val) (hk1 : (k 1).val = (x 1).val) :
    (iblk0 (F := Ideal) V c 1 t : Vec Ideal S256x512 .bf16) x = (V c main_v6 : S256x512.Idx → Elt Ideal .bf16) k := by
  obtain ⟨-, -, e2, e3, -⟩ := block_indices t
  unfold iblk0
  rw [View.read_apply]
  show V c main_v6 _ = V c main_v6 _
  refine congrArg (V c main_v6) ?_
  funext a
  apply Fin.ext
  match a with
  | ⟨0, _⟩ => show win0_1.index t 0 * 256 + 1 * (x 0).val = (k 0).val; rw [e2, hk0]; omega
  | ⟨1, _⟩ => show win0_1.index t 1 * 512 + 1 * (x 1).val = (k 1).val; rw [e3, hk1]; omega

/-- What point t writes back is its block of the encoded features: the block (t mod 4, t div 4) of the output holds, at
    (p, q), the inner product of stacked row 1024·t + p with weight column q, and 1024·t = 4096·(t div 4) + 1024·(t mod 4). -/
theorem flushed_eq (c : Dev nD) (t : Fin cfg0.N) :
    (dat0 (F := Ideal) V c).flushed 2 t
      = ((cfg0.win 2).blk t).view.read (Elt Ideal) (Dgi.featOut (V c main_v4) (V c main_v6)) := by
  show (cfg0.win 2).cut (grid0.coords t) ((dat0 V c).after 2 t) = _
  rw [after0_2]
  unfold out0_2
  rw [View.canon_unit_zero zeros2]
  simp only [View.ld_unit_zero (S := S1024x256) zeros2, View.ld_unit_zero (S := S256x512) zeros2]
  obtain ⟨-, -, -, -, e4, e5⟩ := block_indices t
  have ht : t.val < 8 := lt_of_lt_of_eq t.isLt N_0
  funext j
  obtain ⟨p, q, rfl⟩ : ∃ (p : Fin 1024) (q : Fin 512), j = ix2 p q := ⟨j 0, j 1, eq_ix2 j⟩
  show k0_pay1 (iblk0 V c 0 t) (iblk0 V c 1 t) (ix2 p q)
    = Dgi.featOut (V c main_v4) (V c main_v6) (((cfg0.win 2).blk t).view.emb (ix2 p q))
  refine (tile_apply (iblk0 V c 0 t) (iblk0 V c 1 t) p q).trans ?_
  have h0 : ((((cfg0.win 2).blk t).view.emb (ix2 p q)) 0).val = t.val % 4 * 1024 + p.val := by
    show win0_2.index t (0 : Fin 2) * 1024 + 1 * p.val = _; rw [e4]; omega
  have h1 : ((((cfg0.win 2).blk t).view.emb (ix2 p q)) 1).val = t.val / 4 * 512 + q.val := by
    show win0_2.index t (1 : Fin 2) * 512 + 1 * q.val = _; rw [e5]; omega
  generalize ((cfg0.win 2).blk t).view.emb (ix2 p q) = i at h0 h1
  have hp := p.isLt
  have hq := q.isLt
  unfold Dgi.featOut
  refine Finset.sum_congr rfl fun d _ => ?_
  refine congrArg₂ (· * ·) ?_ ?_
  · exact rows_block_apply V c t (ix2 p d) _ (by show 4096 * ((i 1).val / 512) + (i 0).val = 1024 * t.val + p.val; omega) rfl
  · exact weights_block_apply V c t (ix2 d q) _ rfl (by show (i 1).val % 512 = q.val; omega)

/-- An index of the output lies in point t's block exactly when each coordinate lies in the block's range on its axis. -/
theorem mem_block (t : Fin cfg0.N) (i : S4096x1024.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v12).slice (win0_2.rect t)).set ↔ _
  rw [View.set_slice_whole, Rect.mem_set_unit]
  exact Iff.rfl

/-- Every entry (r, col) of the output is written by the point 4·(col div 512) + r div 1024: the eight blocks tile it. -/
theorem covered (i : S4096x1024.Idx) :
    ∃ t : Fin cfg0.N, (cfg0.win 2).flush t = true ∧ i ∈ ((cfg0.win 2).blk t).view.set := by
  have h0 : (i 0).val < 4096 := idx2_lt0 i
  have h1 : (i 1).val < 1024 := idx2_lt1 i
  obtain ⟨t, ht⟩ : ∃ t : Fin cfg0.N, t.val = 4 * ((i 1).val / 512) + (i 0).val / 1024 :=
    ⟨⟨4 * ((i 1).val / 512) + (i 0).val / 1024, by show _ < grid0.N; rw [N_0]; omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 512 ≤ (i 1).val ∧ (i 1).val < win0_2.index t (1 : Fin 2) * 512 + 512
    rw [e5, ht]; omega

/-- After the eight points the output array holds the encoded features of the stacked input, entry by entry. -/
theorem final2 (c : Dev nD) :
    (dat0 (F := Ideal) V c).arrAt 2 cfg0.N = Dgi.featOut (V c main_v4) (V c main_v6) :=
  (dat0 V c).arrAt_eq_of_cover 2 (Dgi.featOut (V c main_v4) (V c main_v6)) (fun t _ => flushed_eq V c t) covered

end Cert.ReferenceIdeal.Feat

end
-- ==== Proof.RefSpmm.lean ====
/-
  The tiled propagation stage of the encode-then-propagate program, read as a function of the arrays it finds.

  The stage visits sixteen points (i, k), i < 8 a tile of 512 rows, k < 2 a half of the contraction axis. At (i, 0) it
  stores the doubled bias row on every row of its [512,1024] output block (under a row mask `512·i + row < 4096` that
  holds at every row) and adds the product of the adjacency tile A[512·i .., 0 .. 2048] with the encoded features
  h[0 .. 2048, ·]; at (i, 1) it adds the product of A[512·i .., 2048 .. 4096] with h[2048 .. 4096, ·] to what (i, 0)
  left, writes the block back, and stores the column sums of the block's left 512 columns, repeated on eight
  sublanes, into an [8,512] block of the second output. So over the extended reals, where a matrix product into a zero
  accumulator is the plain sum over the contraction index,
      out (512·i + p, q) = (bb(q) + Σ_{k<2048} A(512·i+p, k)·h(k, q)) + Σ_{k<2048} A(512·i+p, 2048+k)·h(2048+k, q),
      part (8·i + s, q)  = Σ_{r<512} out (512·i + r, q)                                   (q < 512),
  which are `Dgi.spmmOut` and `Dgi.partOut` of it. The proof reads the three stored values at an index, follows the
  output block through an even point and the odd point after it, and then uses that the blocks written back at the odd
  points tile both output arrays.
-/
import proofs.«127692_g2000106255353042_pallasbulk_995_18_alg».proof.Proof.Gen.ReferenceIdeal.Frame
import proofs.«127692_g2000106255353042_pallasbulk_995_18_alg».proof.Proof.DgiSpec
import proofs.«127692_g2000106255353042_pallasbulk_995_18_alg».proof.Proof.LibPlainDot
import proofs.«127692_g2000106255353042_pallasbulk_995_18_alg».proof.Proof.LibAxisFolds
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.ReferenceIdeal.Spmm

open Cert.ReferenceIdeal Cert.ReferenceIdeal.Gen

section Pieces
variable {F : FTy → Type} [FloatOps F]

theorem hz : (![0, 0] : Fin 2 → Nat) = fun _ => 0 := funext fun a => by fin_cases a <;> rfl

/-- At an odd point the body adds the product of the two input blocks to what the output block held. -/
theorem out_B_3 (c : Dev nD) (i : grid1.Coords) (a2 : Memref sig .tc .vmem S512x2048 .bf16) (h2 : a2.IsWhole)
    (a3 : Memref sig .tc .vmem S2048x1024 .bf16) (h3 : a3.IsWhole) (a4 : Memref sig .tc .vmem S1x1024 .f32) (h4 : a4.IsWhole)
    (a5 : Memref sig .tc .vmem S512x1024 .f32) (h5 : a5.IsWhole) (a6 : Memref sig .tc .vmem S8x512 .f32) (h6 : a6.IsWhole)
    (hc0 : ¬cond1_0 i) (hc1 : cond1_1 i)
    (x0 : Vec F S512x2048 .bf16) (x1 : Vec F S2048x1024 .bf16) (x2 : Vec F S1x1024 .f32) (xo : Vec F S512x1024 .f32) :
    out1_B_3 c i a2 h2 a3 h3 a4 h4 a5 h5 a6 h6 hc0 hc1 x0 x1 x2 xo = k1_pay2 xo x0 x1 := by
  unfold out1_B_3
  rw [View.read_writes_eq_canon _ _ _ (cover1_B_3 c i a2 h2 a3 h3 a4 h4 a5 h5 a6 h6 hc0 hc1 x0 x1 x2 xo)]
  unfold kernelRun1_B
  dsimp only
  sl_unfold_words
  rw [View.canon_unit_zero (S := S512x1024) hz]
  simp only [View.readAt_eq_ld, h5.read_unread, h2.read_unread, h3.read_unread, View.ld_unit_zero (S := S512x1024) hz,
    View.ld_unit_zero (S := S512x2048) hz, View.ld_unit_zero (S := S2048x1024) hz]

/-- At an odd point the second output block is the column-sum payload of the updated first output block. -/
theorem out_B_4 (c : Dev nD) (i : grid1.Coords) (a2 : Memref sig .tc .vmem S512x2048 .bf16) (h2 : a2.IsWhole)
    (a3 : Memref sig .tc .vmem S2048x1024 .bf16) (h3 : a3.IsWhole) (a4 : Memref sig .tc .vmem S1x1024 .f32) (h4 : a4.IsWhole)
    (a5 : Memref sig .tc .vmem S512x1024 .f32) (h5 : a5.IsWhole) (a6 : Memref sig .tc .vmem S8x512 .f32) (h6 : a6.IsWhole)
    (hc0 : ¬cond1_0 i) (hc1 : cond1_1 i)
    (x0 : Vec F S512x2048 .bf16) (x1 : Vec F S2048x1024 .bf16) (x2 : Vec F S1x1024 .f32) (xo : Vec F S512x1024 .f32) :
    out1_B_4 c i a2 h2 a3 h3 a4 h4 a5 h5 a6 h6 hc0 hc1 x0 x1 x2 xo = k1_pay3 (k1_pay2 xo x0 x1) := by
  unfold out1_B_4
  rw [View.read_writes_eq_canon _ _ _ (cover1_B_4 c i a2 h2 a3 h3 a4 h4 a5 h5 a6 h6 hc0 hc1 x0 x1 x2 xo)]
  unfold kernelRun1_B
  dsimp only
  sl_unfold_words
  rw [View.canon_unit_zero (S := S8x512) hz, View.readCov_unit_zero (S := S512x1024) _ hz]
  simp only [View.readAt_eq_ld, h5.read_unread, h2.read_unread, h3.read_unread, View.ld_unit_zero (S := S512x1024) hz,
    View.ld_unit_zero (S := S512x2048) hz, View.ld_unit_zero (S := S2048x1024) hz]

/-- At an even point the body first stores the masked bias, then adds the product of the two input blocks to it. -/
theorem out_A_3 (c : Dev nD) (i : grid1.Coords) (a2 : Memref sig .tc .vmem S512x2048 .bf16) (h2 : a2.IsWhole)
    (a3 : Memref sig .tc .vmem S2048x1024 .bf16) (h3 : a3.IsWhole) (a4 : Memref sig .tc .vmem S1x1024 .f32) (h4 : a4.IsWhole)
    (a5 : Memref sig .tc .vmem S512x1024 .f32) (h5 : a5.IsWhole) (a6 : Memref sig .tc .vmem S8x512 .f32) (h6 : a6.IsWhole)
    (hc0 : cond1_0 i) (hc1 : ¬cond1_1 i)
    (x0 : Vec F S512x2048 .bf16) (x1 : Vec F S2048x1024 .bf16) (x2 : Vec F S1x1024 .f32) :
    out1_A_3 c i a2 h2 a3 h3 a4 h4 a5 h5 a6 h6 hc0 hc1 x0 x1 x2 = k1_pay2 (k1_pay1 i x2) x0 x1 := by
  unfold out1_A_3
  rw [View.read_writes_eq_canon _ _ _ (cover1_A_3 c i a2 h2 a3 h3 a4 h4 a5 h5 a6 h6 hc0 hc1 x0 x1 x2)]
  unfold kernelRun1_A
  dsimp only
  sl_unfold_words
  rw [View.canon_cons_unit_zero (S := S512x1024) hz, View.readCov_unit_zero (S := S512x1024) _ hz]
  simp only [View.readAt_eq_ld, h4.read_unread, h2.read_unread, h3.read_unread, View.ld_unit_zero (S := S1x1024) hz,
    View.ld_unit_zero (S := S512x2048) hz, View.ld_unit_zero (S := S2048x1024) hz]

end Pieces

section Payloads

abbrev D : DotDims S512x2048 S2048x1024 S512x1024 := dot_S512x2048_S2048x1024_S512x1024_1_0_0_1_n_n

/-- Row `512·a + p` of a row tile `a < 8` lies below 4096, as signed 32-bit words: the row mask of the bias payload holds
    everywhere. -/
theorem mask_true : ∀ (a : Fin 8) (p : Fin 512),
    IntOp.cmpi .slt (IntOp.addi (Scalar.muli (BitVec.ofNat 32 a.val) 512#32) (BitVec.ofNat 32 p.val)) 4096#32 = 1#1 := by
  decide +kernel

/-- The first store of an even point: the bias row, repeated on every row of the block. -/
theorem pay1_at (i : grid1.Coords) (b : Vec Ideal S1x1024 .f32) (p : Fin 512) (q : Fin 1024) :
    k1_pay1 (F := Ideal) i b (ix2 p q) = b (ix2 (0 : Fin 1) q) := by
  unfold k1_pay1
  dsimp only
  have hi : iota .tc S512x1024 32 [0] iota_S512x1024_d0_w32 (ix2 p q) = BitVec.ofNat 32 p.val :=
    iota_single_apply .tc S512x1024 32 0 iota_S512x1024_d0_w32 (ix2 p q)
  have hm : IntOp.cmpi .slt (IntOp.addi (Scalar.muli (BitVec.ofNat 32 (i 0).val) 512#32)
      (iota .tc S512x1024 32 [0] iota_S512x1024_d0_w32 (ix2 p q))) 4096#32 = 1#1 := by
    rw [hi]; exact mask_true ⟨(i 0).val, (i 0).isLt⟩ p
  refine (select_apply _ _ _ (ix2 p q)).trans ?_
  refine (congrArg (fun m => Scalar.select m _ _) hm).trans ?_
  refine (select_one _ _).trans ?_
  refine (broadcastTo_1b_ab_apply _ _ p q).trans ?_
  rw [shapeCast_self, shapeCast_self]

/-- The accumulating store: the old block plus the product of the adjacency tile and the feature tile. -/
theorem pay2_at (acc : Vec Ideal S512x1024 .f32) (a : Vec Ideal S512x2048 .bf16) (b : Vec Ideal S2048x1024 .bf16)
    (p : Fin 512) (q : Fin 1024) :
    k1_pay2 (F := Ideal) acc a b (ix2 p q) = acc (ix2 p q) + ∑ k : Fin 2048, a (ix2 p k) * b (ix2 k q) := by
  unfold k1_pay2
  refine (addf_apply _ _ (ix2 p q)).trans ?_
  rw [shapeCast_self, shapeCast_self]
  exact congrArg (acc (ix2 p q) + ·) (PlainDot.matmul_zero_plain D rfl rfl rfl rfl rfl rfl none a b (ix2 p q))

/-- The column sums of the left 512 columns of a block, the same on each of the eight sublanes. -/
theorem pay3_at (z : Vec Ideal S512x1024 .f32) (s : Fin 8) (q : Fin 512) :
    k1_pay3 (F := Ideal) z (ix2 s q) = ∑ r : Fin 512, z (ix2 r ⟨q.val, by have := q.isLt; omega⟩) := by
  unfold k1_pay3
  refine (broadcastTo_1b_ab_apply _ _ s q).trans ?_
  rw [shapeCast_self]
  refine (shapeCast_a_1a_apply _ _ (0 : Fin 1) q).trans ?_
  refine (Cert.LibAxisFolds.colSum_apply _ _ _ _ _ q).trans ?_
  refine Finset.sum_congr rfl fun r _ => ?_
  rw [shapeCast_self]
  exact slice2_axis1_apply 0 z _ r q ⟨q.val, by have := q.isLt; omega⟩ (Nat.zero_add _).symm

end Payloads

section Blocks
variable {F : FTy → Type} [FloatOps F]
variable (V : (c : Dev nD) → (b : Ref sig .tc) → Buf (Elt F) ((c : Thread nD τ).loc b)) (c : Dev nD)

theorem tlt (t : Fin cfg1.N) : t.val < 16 := lt_of_lt_of_eq t.isLt (show cfg1.N = 16 from N_1)

/-- The block index maps over the sixteen points: point `t` is row tile `t / 2`, contraction tile `t % 2`. -/
theorem idx_facts : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = 0 ∧ win1_2.index t (1 : Fin 2) = 0
    ∧ win1_3.index t (0 : Fin 2) = t.val / 2 ∧ win1_3.index t (1 : Fin 2) = 0
    ∧ win1_4.index t (0 : Fin 2) = t.val / 2 ∧ win1_4.index t (1 : Fin 2) = 0 :=
  (by decide +kernel : ∀ t : Fin grid1.N, _)

/-- The adjacency block at point `t` is rows `512·(t/2) ..`, columns `2048·(t%2) ..` of the adjacency. -/
theorem iblk0_at (t : Fin cfg1.N) (p : Fin 512) (k : Fin 2048) (r s : Fin 4096)
    (hr : r.val = 512 * (t.val / 2) + p.val) (hs : s.val = 2048 * (t.val % 2) + k.val) :
    (iblk1 V c 0 t : Vec F S512x2048 .bf16) (ix2 p k) = V c main_arg2 (ix2 r s) := by
  obtain ⟨e0, e1, -⟩ := idx_facts t
  unfold iblk1
  rw [View.read_apply]
  show V c main_arg2 _ = V c main_arg2 _
  refine congrArg (V c main_arg2) (funext fun a => Fin.ext ?_)
  match a with
  | ⟨0, _⟩ => show win1_0.index t (0 : Fin 2) * 512 + 1 * p.val = r.val; rw [e0, hr]; omega
  | ⟨1, _⟩ => show win1_0.index t (1 : Fin 2) * 2048 + 1 * k.val = s.val; rw [e1, hs]; omega

/-- The feature block at point `t` is rows `2048·(t%2) ..` of the encoded features, all columns. -/
theorem iblk1_at (t : Fin cfg1.N) (k : Fin 2048) (q : Fin 1024) (r : Fin 4096)
    (hr : r.val = 2048 * (t.val % 2) + k.val) :
    (iblk1 V c 1 t : Vec F S2048x1024 .bf16) (ix2 k q) = V c main_v12 (ix2 r q) := by
  obtain ⟨-, -, e0, e1, -⟩ := idx_facts t
  unfold iblk1
  rw [View.read_apply]
  show V c main_v12 _ = V c main_v12 _
  refine congrArg (V c main_v12) (funext fun a => Fin.ext ?_)
  match a with
  | ⟨0, _⟩ => show win1_1.index t (0 : Fin 2) * 2048 + 1 * k.val = r.val; rw [e0, hr]; omega
  | ⟨1, _⟩ => show win1_1.index t (1 : Fin 2) * 1024 + 1 * q.val = q.val; rw [e1]; omega

/-- The bias block is the whole doubled bias row at every point. -/
theorem iblk2_at (t : Fin cfg1.N) (q : Fin 1024) :
    (iblk1 V c 2 t : Vec F S1x1024 .f32) (ix2 (0 : Fin 1) q) = V c main_v8 (ix2 (0 : Fin 1) q) := by
  obtain ⟨-, -, -, -, e0, e1, -⟩ := idx_facts t
  unfold iblk1
  rw [View.read_apply]
  show V c main_v8 _ = V c main_v8 _
  refine congrArg (V c main_v8) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = q.val; rw [e1]; omega

end Blocks

section Points
variable (V : (c : Dev nD) → (b : Ref sig .tc) → Buf (Elt Ideal) ((c : Thread nD τ).loc b)) (c : Dev nD)

/-- The bias plus the sum over the first half of the contraction axis: what an even point leaves. -/
def firstHalf (A : Dgi.Arr 4096 4096) (h : Dgi.Arr 4096 1024) (bb : Dgi.Arr 1 1024) : Dgi.Arr 4096 1024 := fun j =>
  bb (ix2 0 (j 1)) + ∑ k : Fin 2048, A (ix2 (j 0) ⟨k.val, by have := k.isLt; omega⟩) * h (ix2 ⟨k.val, by have := k.isLt; omega⟩ (j 1))

theorem spmmOut_eq (A : Dgi.Arr 4096 4096) (h : Dgi.Arr 4096 1024) (bb : Dgi.Arr 1 1024) (j : (⟨2, ![4096, 1024]⟩ : Shape).Idx) :
    Dgi.spmmOut A h bb j = firstHalf A h bb j
      + ∑ k : Fin 2048, A (ix2 (j 0) ⟨2048 + k.val, by have := k.isLt; omega⟩) * h (ix2 ⟨2048 + k.val, by have := k.isLt; omega⟩ (j 1)) := rfl

/-- After an even point `n` the first output block holds, at row `p`, the first half of row `512·(n/2) + p`. -/
theorem even_pt (n : ℕ) (hn : n < cfg1.N) (h0 : n % 2 = 0) (p : Fin 512) (q : Fin 1024) (r : Fin 4096)
    (hr : r.val = 512 * (n / 2) + p.val) :
    (outsAt1 V c n hn).1 (ix2 p q) = firstHalf (V c main_arg2) (V c main_v12) (V c main_v8) (ix2 r q) := by
  have h1 : ¬n % 2 = 1 := by omega
  have e := congrArg Prod.fst (outsAt1_A V c ⟨n, hn⟩ h0 h1)
  dsimp only at e
  refine (congrFun e (ix2 p q)).trans ?_
  refine (congrFun (out_A_3 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩)) (ix2 p q)).trans ?_
  refine (pay2_at (k1_pay1 (grid1.coords ⟨n, hn⟩) (iblk1 V c 2 ⟨n, hn⟩)) (iblk1 V c 0 ⟨n, hn⟩) (iblk1 V c 1 ⟨n, hn⟩) p q).trans ?_
  refine congrArg₂ (· + ·) ?_ (Finset.sum_congr rfl fun k _ => congrArg₂ (· * ·) ?_ ?_)
  · exact (pay1_at (grid1.coords ⟨n, hn⟩) (iblk1 V c 2 ⟨n, hn⟩) p q).trans (iblk2_at V c ⟨n, hn⟩ q)
  · exact iblk0_at V c ⟨n, hn⟩ p k r ⟨k.val, by have := k.isLt; omega⟩ hr (by show k.val = 2048 * (n % 2) + k.val; omega)
  · exact iblk1_at V c ⟨n, hn⟩ k q ⟨k.val, by have := k.isLt; omega⟩ (by show k.val = 2048 * (n % 2) + k.val; omega)

/-- The accumulating store of an odd point `n`, over what the even point before left, is the whole row. -/
theorem odd_val (n : ℕ) (hn : n < cfg1.N) (h1 : n % 2 = 1) (p : Fin 512) (q : Fin 1024) (r : Fin 4096)
    (hr : r.val = 512 * (n / 2) + p.val) :
    k1_pay2 (F := Ideal) (outsAt1 V c (n - 1) (Nat.lt_of_le_of_lt (Nat.sub_le _ _) hn)).1 (iblk1 V c 0 ⟨n, hn⟩) (iblk1 V c 1 ⟨n, hn⟩) (ix2 p q)
      = Dgi.spmmOut (V c main_arg2) (V c main_v12) (V c main_v8) (ix2 r q) := by
  refine (pay2_at _ (iblk1 V c 0 ⟨n, hn⟩) (iblk1 V c 1 ⟨n, hn⟩) p q).trans ?_
  refine Eq.trans ?_ (spmmOut_eq _ _ _ _).symm
  refine congrArg₂ (· + ·) ?_ (Finset.sum_congr rfl fun k _ => congrArg₂ (· * ·) ?_ ?_)
  · exact even_pt V c (n - 1) _ (by omega) p q r (by rw [hr]; omega)
  · exact iblk0_at V c ⟨n, hn⟩ p k r ⟨2048 + k.val, by have := k.isLt; omega⟩ hr (by show 2048 + k.val = 2048 * (n % 2) + k.val; omega)
  · exact iblk1_at V c ⟨n, hn⟩ k q ⟨2048 + k.val, by have := k.isLt; omega⟩ (by show 2048 + k.val = 2048 * (n % 2) + k.val; omega)

/-- After an odd point the first output block holds the finished rows of its row tile. -/
theorem odd_pt3 (t : Fin cfg1.N) (h1 : t.val % 2 = 1) (p : Fin 512) (q : Fin 1024) (r : Fin 4096)
    (hr : r.val = 512 * (t.val / 2) + p.val) :
    (outsAt1 V c t.val t.isLt).1 (ix2 p q) = Dgi.spmmOut (V c main_arg2) (V c main_v12) (V c main_v8) (ix2 r q) := by
  have h0 : ¬t.val % 2 = 0 := by omega
  have e := congrArg Prod.fst (outsAt1_B V c t h0 h1)
  dsimp only at e
  refine (congrFun e (ix2 p q)).trans ?_
  refine (congrFun (out_B_3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).1) (ix2 p q)).trans ?_
  exact odd_val V c t.val t.isLt h1 p q r hr

/-- After an odd point the second output block holds, on each sublane, the column sums of the finished rows' left half. -/
theorem odd_pt4 (t : Fin cfg1.N) (h1 : t.val % 2 = 1) (s : Fin 8) (q : Fin 512) :
    (outsAt1 V c t.val t.isLt).2 (ix2 s q)
      = ∑ r : Fin 512, Dgi.spmmOut (V c main_arg2) (V c main_v12) (V c main_v8)
          (ix2 ⟨512 * (t.val / 2) + r.val, by have := tlt t; have := r.isLt; omega⟩ ⟨q.val, by have := q.isLt; omega⟩) := by
  have h0 : ¬t.val % 2 = 0 := by omega
  have e := congrArg Prod.snd (outsAt1_B V c t h0 h1)
  dsimp only at e
  refine (congrFun e (ix2 s q)).trans ?_
  refine (congrFun (out_B_4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).1) (ix2 s q)).trans ?_
  refine (pay3_at _ s q).trans ?_
  exact Finset.sum_congr rfl fun r _ => odd_val V c t.val t.isLt h1 r ⟨q.val, by have := q.isLt; omega⟩ _ rfl

end Points

section Final
variable (V : (c : Dev nD) → (b : Ref sig .tc) → Buf (Elt Ideal) ((c : Thread nD τ).loc b)) (c : Dev nD)

/-- What an odd point writes back through the first output window is its block of the propagation. -/
theorem flushed3 (t : Fin cfg1.N) (hf : (cfg1.win 3).flush t = true) :
    (dat1 V c).flushed 3 t
      = ((cfg1.win 3).blk t).view.read (Elt Ideal) (Dgi.spmmOut (V c main_arg2) (V c main_v12) (V c main_v8)) := by
  have h1 : t.val % 2 = 1 := (flush1_3 t).mp hf
  have hN := tlt t
  obtain ⟨-, -, -, -, -, -, e0, e1, -⟩ := idx_facts t
  show (cfg1.win 3).cut (grid1.coords t) ((dat1 V c).after 3 t) = _
  rw [after1_3]
  funext y
  obtain ⟨p, q, rfl⟩ : ∃ (p : Fin 512) (q : Fin 1024), y = ix2 p q := ⟨y 0, y 1, eq_ix2 y⟩
  rw [View.read_apply]
  show (outsAt1 V c t.val t.isLt).1 (ix2 p q)
    = Dgi.spmmOut (V c main_arg2) (V c main_v12) (V c main_v8) (((cfg1.win 3).blk t).view.emb (ix2 p q))
  refine (odd_pt3 V c t h1 p q ⟨512 * (t.val / 2) + p.val, by have := p.isLt; omega⟩ rfl).trans ?_
  refine congrArg (Dgi.spmmOut (V c main_arg2) (V c main_v12) (V c main_v8)) (funext fun a => Fin.ext ?_)
  match a with
  | ⟨0, _⟩ => show 512 * (t.val / 2) + p.val = win1_3.index t (0 : Fin 2) * 512 + 1 * p.val; rw [e0]; omega
  | ⟨1, _⟩ => show q.val = win1_3.index t (1 : Fin 2) * 1024 + 1 * q.val; rw [e1]; omega

/-- Row `r` of the first output lies in the block written back at point `2·(r / 512) + 1`. -/
theorem cover3 (i : (⟨2, ![4096, 1024]⟩ : Shape).Idx) :
    ∃ t : Fin cfg1.N, (cfg1.win 3).flush t = true ∧ i ∈ ((cfg1.win 3).blk t).view.set := by
  have hi0 : (i 0).val < 4096 := idx2_lt0 i
  have hi1 : (i 1).val < 1024 := idx2_lt1 i
  obtain ⟨t, ht⟩ : ∃ t : Fin cfg1.N, t.val = 2 * ((i 0).val / 512) + 1 :=
    ⟨⟨2 * ((i 0).val / 512) + 1, by rw [show cfg1.N = 16 from N_1]; omega⟩, rfl⟩
  obtain ⟨-, -, -, -, -, -, e0, e1, -⟩ := idx_facts t
  refine ⟨t, (flush1_3 t).mpr (by omega), ?_⟩
  show i ∈ ((View.whole main_v13_0).slice (win1_3.rect t)).set
  rw [View.set_slice_whole, Rect.mem_set_unit]
  intro a
  match a with
  | ⟨0, _⟩ =>
    show win1_3.index t (0 : Fin 2) * 512 ≤ (i 0).val ∧ (i 0).val < win1_3.index t (0 : Fin 2) * 512 + 512
    rw [e0]; omega
  | ⟨1, _⟩ =>
    show win1_3.index t (1 : Fin 2) * 1024 ≤ (i 1).val ∧ (i 1).val < win1_3.index t (1 : Fin 2) * 1024 + 1024
    rw [e1]; omega

/-- The first output array ends as the propagation of the adjacency over the encoded features, plus the bias. -/
theorem final3 :
    (dat1 (F := Ideal) V c).arrAt 3 cfg1.N = Dgi.spmmOut (V c main_arg2) (V c main_v12) (V c main_v8) :=
  (dat1 V c).arrAt_eq_of_cover 3 (Dgi.spmmOut (V c main_arg2) (V c main_v12) (V c main_v8)) (flushed3 V c) cover3

/-- What an odd point writes back through the second output window is its block of the per-tile column sums. -/
theorem flushed4 (t : Fin cfg1.N) (hf : (cfg1.win 4).flush t = true) :
    (dat1 V c).flushed 4 t
      = ((cfg1.win 4).blk t).view.read (Elt Ideal) (Dgi.partOut (Dgi.spmmOut (V c main_arg2) (V c main_v12) (V c main_v8))) := by
  have h1 : t.val % 2 = 1 := (flush1_4 t).mp hf
  have hN := tlt t
  obtain ⟨-, -, -, -, -, -, -, -, e0, e1⟩ := idx_facts t
  show (cfg1.win 4).cut (grid1.coords t) ((dat1 V c).after 4 t) = _
  rw [after1_4]
  funext y
  obtain ⟨s, q, rfl⟩ : ∃ (s : Fin 8) (q : Fin 512), y = ix2 s q := ⟨y 0, y 1, eq_ix2 y⟩
  rw [View.read_apply]
  show (outsAt1 V c t.val t.isLt).2 (ix2 s q)
    = Dgi.partOut (Dgi.spmmOut (V c main_arg2) (V c main_v12) (V c main_v8)) (((cfg1.win 4).blk t).view.emb (ix2 s q))
  refine (odd_pt4 V c t h1 s q).trans ?_
  unfold Dgi.partOut
  refine Finset.sum_congr rfl fun r _ =>
    congrArg (Dgi.spmmOut (V c main_arg2) (V c main_v12) (V c main_v8)) (funext fun a => Fin.ext ?_)
  match a with
  | ⟨0, _⟩ =>
    show 512 * (t.val / 2) + r.val = 512 * ((win1_4.index t (0 : Fin 2) * 8 + 1 * s.val) / 8) + r.val
    rw [e0]; have := s.isLt; omega
  | ⟨1, _⟩ => show q.val = win1_4.index t (1 : Fin 2) * 512 + 1 * q.val; rw [e1]; omega

/-- Row `r` of the second output lies in the block written back at point `2·(r / 8) + 1`. -/
theorem cover4 (i : (⟨2, ![64, 512]⟩ : Shape).Idx) :
    ∃ t : Fin cfg1.N, (cfg1.win 4).flush t = true ∧ i ∈ ((cfg1.win 4).blk t).view.set := by
  have hi0 : (i 0).val < 64 := idx2_lt0 i
  have hi1 : (i 1).val < 512 := idx2_lt1 i
  obtain ⟨t, ht⟩ : ∃ t : Fin cfg1.N, t.val = 2 * ((i 0).val / 8) + 1 :=
    ⟨⟨2 * ((i 0).val / 8) + 1, by rw [show cfg1.N = 16 from N_1]; omega⟩, rfl⟩
  obtain ⟨-, -, -, -, -, -, -, -, e0, e1⟩ := idx_facts t
  refine ⟨t, (flush1_4 t).mpr (by omega), ?_⟩
  show i ∈ ((View.whole main_v13_1).slice (win1_4.rect t)).set
  rw [View.set_slice_whole, Rect.mem_set_unit]
  intro a
  match a with
  | ⟨0, _⟩ =>
    show win1_4.index t (0 : Fin 2) * 8 ≤ (i 0).val ∧ (i 0).val < win1_4.index t (0 : Fin 2) * 8 + 8
    rw [e0]; omega
  | ⟨1, _⟩ =>
    show win1_4.index t (1 : Fin 2) * 512 ≤ (i 1).val ∧ (i 1).val < win1_4.index t (1 : Fin 2) * 512 + 512
    rw [e1]; omega

/-- The second output array ends as the column sums of each 512-row tile's left half, on eight sublanes per tile. -/
theorem final4 :
    (dat1 (F := Ideal) V c).arrAt 4 cfg1.N
      = Dgi.partOut (Dgi.spmmOut (V c main_arg2) (V c main_v12) (V c main_v8)) :=
  (dat1 V c).arrAt_eq_of_cover 4 (Dgi.partOut (Dgi.spmmOut (V c main_arg2) (V c main_v12) (V c main_v8))) (flushed4 V c) cover4

end Final

end Cert.ReferenceIdeal.Spmm

end
-- ==== Proof.RefProj.lean ====
/-
  The projection stage, read as one function of its three input arrays.

  Its inputs are whole arrays: a [64,512] array of partial column sums, a [512,512] matrix and a [1,512] bias. Its
  grid has one point, whose blocks are the whole arrays.

  For each column h the 64 rows of the partial sums are added, the sum is multiplied by 2⁻¹⁵ and passed through the
  logistic function; the resulting row vector is contracted with the matrix over the matrix's first axis, and the
  bias is added. At (0, j) this is
      (Σ_h σ((Σ_q part(q, h)) · 2⁻¹⁵) · wT(h, j)) + bp(0, j),
  the function `Dgi.projOut`. The one block is the whole output, so after the point the array is that function.
-/
import proofs.«127692_g2000106255353042_pallasbulk_995_18_alg».proof.Proof.Gen.ReferenceIdeal.Frame
import proofs.«127692_g2000106255353042_pallasbulk_995_18_alg».proof.Proof.DgiSpec
import proofs.«127692_g2000106255353042_pallasbulk_995_18_alg».proof.Proof.LibPlainDot
import proofs.«127692_g2000106255353042_pallasbulk_995_18_alg».proof.Proof.LibAxisFolds
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Proj

open Cert.ReferenceIdeal Cert.ReferenceIdeal.Gen

theorem zeros2 : (![0, 0] : Fin 2 → Nat) = fun _ => 0 := funext fun a => by fin_cases a <;> rfl

/-- A vector of length 512 viewed as a one-row matrix reads its entry h at (0, h). -/
theorem asRow_apply (v : FVec Ideal S512 .f32) (hc : S512.ShapeCasts S1x512) (u : Fin 1) (h : Fin 512) :
    shapeCast S1x512 v hc (ix2 u h) = v (ix1 h) :=
  shapeCast_apply v hc _ _ (by
    have hu : u.val = 0 := by omega
    rw [Shape.rowMajor_val_two, Shape.rowMajor_val_one]
    show h.val = u.val * 512 + h.val
    omega)

/-- The readout at (0, j): the column sums of the 64 partial rows, scaled, through the logistic function, contracted
    against column j of the projection matrix over its first axis, plus the bias. -/
theorem readout_apply (x0 : FVec Ideal S64x512 .f32) (x1 : FVec Ideal S512x512 .f32) (x2 : FVec Ideal S1x512 .f32)
    (u : Fin 1) (j : Fin 512) :
    k2_pay1 (F := Ideal) x0 x1 x2 (ix2 u j)
      = (∑ h : Fin 512, Ideal.logistic ((∑ q : Fin 64, x0 (ix2 q h)) * Dgi.scale) * x1 (ix2 h j)) + x2 (ix2 u j) := by
  unfold k2_pay1
  dsimp only
  rw [shapeCast_self x0, shapeCast_self x1, shapeCast_self x2, addf_apply]
  refine congrArg (· + x2 (ix2 u j)) ?_
  refine (PlainDot.matmul_zero_plain dot_S1x512_S512x512_S1x512_1_0_0_1_n_n rfl rfl rfl rfl rfl rfl none _ x1 (ix2 u j)).trans ?_
  refine Finset.sum_congr rfl fun h _ => ?_
  refine congrArg (· * x1 (ix2 h j)) ?_
  show Ideal.logistic (shapeCast S1x512 _ _ (ix2 u h) * Dgi.scale) = _
  refine congrArg (fun z => Ideal.logistic (z * Dgi.scale)) ?_
  refine (asRow_apply _ _ u h).trans ?_
  exact LibAxisFolds.colSum_apply x0 _ _ _ _ h

/-- The grid has one point, and at it every window's block is the block at the origin. -/
theorem block_indices : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

/-- The block of the partial sums is the whole [64,512] array. -/
theorem part_block (c : Dev nD) (t : Fin cfg2.N) :
    (iblk2 (F := Ideal) V c 0 t : Vec Ideal S64x512 .f32) = (V c main_v13_1 : S64x512.Idx → Elt Ideal .f32) := by
  obtain ⟨e0, e1, -⟩ := block_indices t
  unfold iblk2
  funext x
  rw [View.read_apply]
  show V c main_v13_1 _ = V c main_v13_1 x
  refine congrArg (V c main_v13_1) ?_
  funext a
  apply Fin.ext
  match a with
  | ⟨0, _⟩ => show win2_0.index t 0 * 64 + 1 * (x 0).val = (x 0).val; rw [e0]; omega
  | ⟨1, _⟩ => show win2_0.index t 1 * 512 + 1 * (x 1).val = (x 1).val; rw [e1]; omega

/-- The block of the projection matrix is the whole [512,512] array. -/
theorem matrix_block (c : Dev nD) (t : Fin cfg2.N) :
    (iblk2 (F := Ideal) V c 1 t : Vec Ideal S512x512 .f32) = (V c main_v10 : S512x512.Idx → Elt Ideal .f32) := by
  obtain ⟨-, -, e2, e3, -⟩ := block_indices t
  unfold iblk2
  funext x
  rw [View.read_apply]
  show V c main_v10 _ = V c main_v10 x
  refine congrArg (V c main_v10) ?_
  funext a
  apply Fin.ext
  match a with
  | ⟨0, _⟩ => show win2_1.index t 0 * 512 + 1 * (x 0).val = (x 0).val; rw [e2]; omega
  | ⟨1, _⟩ => show win2_1.index t 1 * 512 + 1 * (x 1).val = (x 1).val; rw [e3]; omega

/-- The block of the bias is the whole [1,512] array. -/
theorem bias_block (c : Dev nD) (t : Fin cfg2.N) :
    (iblk2 (F := Ideal) V c 2 t : Vec Ideal S1x512 .f32) = (V c main_v11 : S1x512.Idx → Elt Ideal .f32) := by
  obtain ⟨-, -, -, -, e4, e5, -⟩ := block_indices t
  unfold iblk2
  funext x
  rw [View.read_apply]
  show V c main_v11 _ = V c main_v11 x
  refine congrArg (V c main_v11) ?_
  funext a
  apply Fin.ext
  match a with
  | ⟨0, _⟩ => show win2_2.index t 0 * 1 + 1 * (x 0).val = (x 0).val; rw [e4]; omega
  | ⟨1, _⟩ => show win2_2.index t 1 * 512 + 1 * (x 1).val = (x 1).val; rw [e5]; omega

/-- What the one point writes back is the summary readout of the three whole input arrays. -/
theorem flushed_eq (c : Dev nD) (t : Fin cfg2.N) :
    (dat2 (F := Ideal) V c).flushed 3 t
      = ((cfg2.win 3).blk t).view.read (Elt Ideal) (Dgi.projOut (V c main_v13_1) (V c main_v10) (V c main_v11)) := by
  show (cfg2.win 3).cut (grid2.coords t) ((dat2 V c).after 3 t) = _
  rw [after2_3]
  unfold out2_3
  rw [View.canon_unit_zero zeros2]
  simp only [View.ld_unit_zero (S := S64x512) zeros2, View.ld_unit_zero (S := S512x512) zeros2,
    View.ld_unit_zero (S := S1x512) zeros2]
  rw [part_block V c t, matrix_block V c t, bias_block V c t]
  obtain ⟨-, -, -, -, -, -, e6, e7⟩ := block_indices t
  funext y
  obtain ⟨u, j, rfl⟩ : ∃ (u : Fin 1) (j : Fin 512), y = ix2 u j := ⟨y 0, y 1, eq_ix2 y⟩
  show k2_pay1 (V c main_v13_1) (V c main_v10) (V c main_v11) (ix2 u j)
    = Dgi.projOut (V c main_v13_1) (V c main_v10) (V c main_v11) (((cfg2.win 3).blk t).view.emb (ix2 u j))
  refine (readout_apply (V c main_v13_1) (V c main_v10) (V c main_v11) u j).trans ?_
  have h0 : ((((cfg2.win 3).blk t).view.emb (ix2 u j)) 0).val = u.val := by
    show win2_3.index t (0 : Fin 2) * 1 + 1 * u.val = _; rw [e6]; omega
  have h1 : ((((cfg2.win 3).blk t).view.emb (ix2 u j)) 1).val = j.val := by
    show win2_3.index t (1 : Fin 2) * 512 + 1 * j.val = _; rw [e7]; omega
  generalize ((cfg2.win 3).blk t).view.emb (ix2 u j) = i at h0 h1
  have hu : u.val = 0 := by omega
  unfold Dgi.projOut
  refine congrArg₂ (· + ·) (Finset.sum_congr rfl fun h _ => congrArg₂ (· * ·) rfl ?_) ?_
  · refine congrArg (V c main_v10) ?_
    funext a
    apply Fin.ext
    match a with
    | ⟨0, _⟩ => rfl
    | ⟨1, _⟩ => exact h1.symm
  · refine congrArg (V c main_v11) ?_
    funext a
    apply Fin.ext
    match a with
    | ⟨0, _⟩ => exact hu
    | ⟨1, _⟩ => exact h1.symm

/-- An index of the output lies in point t's block exactly when each coordinate lies in the block's range on its axis. -/
theorem mem_block (t : Fin cfg2.N) (i : S1x512.Idx) :
    i ∈ ((cfg2.win 3).blk t).view.set ↔ ∀ a : Fin 2, win2_3.index t a * S1x512.size a ≤ (i a).val
      ∧ (i a).val < win2_3.index t a * S1x512.size a + S1x512.size a := by
  show i ∈ ((View.whole main_v14).slice (win2_3.rect t)).set ↔ _
  rw [View.set_slice_whole, Rect.mem_set_unit]
  exact Iff.rfl

/-- The one block is the whole output. -/
theorem covered (i : S1x512.Idx) :
    ∃ t : Fin cfg2.N, (cfg2.win 3).flush t = true ∧ i ∈ ((cfg2.win 3).blk t).view.set := by
  have h0 : (i 0).val < 1 := idx2_lt0 i
  have h1 : (i 1).val < 512 := idx2_lt1 i
  obtain ⟨t, -⟩ : ∃ t : Fin cfg2.N, t.val = 0 := ⟨⟨0, by show 0 < grid2.N; rw [N_2]; omega⟩, rfl⟩
  obtain ⟨-, -, -, -, -, -, e6, e7⟩ := block_indices t
  refine ⟨t, flush2_3 t, ?_⟩
  rw [mem_block]
  intro a
  match a with
  | ⟨0, _⟩ =>
    show win2_3.index t (0 : Fin 2) * 1 ≤ (i 0).val ∧ (i 0).val < win2_3.index t (0 : Fin 2) * 1 + 1
    rw [e6]; omega
  | ⟨1, _⟩ =>
    show win2_3.index t (1 : Fin 2) * 512 ≤ (i 1).val ∧ (i 1).val < win2_3.index t (1 : Fin 2) * 512 + 512
    rw [e7]; omega

/-- After its one point the output array holds the summary readout of the partial sums, the projection matrix and the bias. -/
theorem final3 (c : Dev nD) :
    (dat2 (F := Ideal) V c).arrAt 3 cfg2.N = Dgi.projOut (V c main_v13_1) (V c main_v10) (V c main_v11) :=
  (dat2 V c).arrAt_eq_of_cover 3 (Dgi.projOut (V c main_v13_1) (V c main_v10) (V c main_v11))
    (fun t _ => flushed_eq V c t) covered

end Cert.ReferenceIdeal.Proj

end
-- ==== Proof.DgiLaws.lean ====
/-
  The laws that join the two arrangements of the propagate-and-encode product.

  One arrangement contracts the adjacency row against the features first and the encoder weights second, and adds the
  bias last; the other contracts the features against the weights first, then the adjacency row in two halves of its
  contraction axis, starting from the bias.  Over real numbers the two are one triple sum
      Σ_d (Σ_k a(k)·X(k,d))·w(d) + β  =  (β + Σ_{k<m} a(k)·Σ_d X(k,d)·w(d)) + Σ_{k<n} a(m+k)·Σ_d X(m+k,d)·w(d),
  by distributivity and an exchange of the two summations.  Distributivity fails at the infinities of the extended
  reals, so the law is stated for entries that are coercions of real numbers and proved in the reals.

  The summary readouts differ by the grouping of a column sum only: four bands of 1024 rows from zero, copied on eight
  sublanes, against eight tiles of 512 rows, each copied on eight rows.  Both are eight copies of the whole column sum,
  in any commutative additive monoid.
-/
import proofs.«127692_g2000106255353042_pallasbulk_995_18_alg».proof.Proof.DgiSpec
import Mathlib.Algebra.BigOperators.Fin
import Mathlib.Algebra.BigOperators.Ring.Finset
import Mathlib.Logic.Equiv.Fin.Basic
import Mathlib.Tactic.Ring
import Mathlib.Tactic.Linarith

noncomputable section

namespace Dgi

open Idealize.ShloMosaic Idealize.ShloMosaic.ValueIdx
open scoped BigOperators

/-! ## Finite sums: splitting an index range, and coercing a real sum -/

/-- A sum over `Fin N` with `N = m + n` is the sum over the first `m` indices plus the sum over the last `n`. -/
theorem sum_split {M : Type*} [AddCommMonoid M] (m n N : ℕ) (hN : m + n = N) (f : Fin N → M) :
    ∑ k : Fin N, f k
      = (∑ k : Fin m, f ⟨k.val, by have := k.isLt; omega⟩) + ∑ k : Fin n, f ⟨m + k.val, by have := k.isLt; omega⟩ := by
  subst hN
  rw [Fin.sum_univ_add]
  rfl

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-! ## The triple product, reassociated -/

/-- The law in the reals. -/
theorem triple_real {N D : ℕ} (m n : ℕ) (hN : m + n = N) (a : Fin N → ℝ) (X : Fin N → Fin D → ℝ) (w : Fin D → ℝ)
    (β : ℝ) :
    (∑ d : Fin D, (∑ k : Fin N, a k * X k d) * w d) + β
      = (β + ∑ k : Fin m, a ⟨k.val, by have := k.isLt; omega⟩ * ∑ d : Fin D, X ⟨k.val, by have := k.isLt; omega⟩ d * w d)
        + ∑ k : Fin n, a ⟨m + k.val, by have := k.isLt; omega⟩
            * ∑ d : Fin D, X ⟨m + k.val, by have := k.isLt; omega⟩ d * w d := by
  have key : ∑ d : Fin D, (∑ k : Fin N, a k * X k d) * w d = ∑ k : Fin N, a k * ∑ d : Fin D, X k d * w d := by
    simp only [Finset.sum_mul, Finset.mul_sum]
    rw [Finset.sum_comm]
    refine Finset.sum_congr rfl fun k _ => Finset.sum_congr rfl fun d _ => ?_
    ring
  rw [key, sum_split m n N hN (fun k => a k * ∑ d : Fin D, X k d * w d)]
  ring

/-- The law in the extended reals, for entries that are real. -/
theorem triple {N D : ℕ} (m n : ℕ) (hN : m + n = N) (a : Fin N → EReal) (X : Fin N → Fin D → EReal)
    (w : Fin D → EReal) (β : EReal)
    (ha : ∀ k, ∃ r : ℝ, a k = (r : EReal)) (hX : ∀ k d, ∃ r : ℝ, X k d = (r : EReal))
    (hw : ∀ d, ∃ r : ℝ, w d = (r : EReal)) (hβ : ∃ r : ℝ, β = (r : EReal)) :
    (∑ d : Fin D, (∑ k : Fin N, a k * X k d) * w d) + β
      = (β + ∑ k : Fin m, a ⟨k.val, by have := k.isLt; omega⟩ * ∑ d : Fin D, X ⟨k.val, by have := k.isLt; omega⟩ d * w d)
        + ∑ k : Fin n, a ⟨m + k.val, by have := k.isLt; omega⟩
            * ∑ d : Fin D, X ⟨m + k.val, by have := k.isLt; omega⟩ d * w d := by
  choose a' ha' using ha
  choose X' hX' using hX
  choose w' hw' using hw
  obtain ⟨β', rfl⟩ := hβ
  simp only [ha', hX', hw', ← EReal.coe_mul, ← coe_sum, ← EReal.coe_add]
  exact congrArg _ (triple_real m n hN a' X' w' β')

/-! ## The arrays read at an index given by its coordinates -/

theorem propEnc_apply (A : Arr 4096 4096) (xs : Arr 4096 512) (off : Nat) (hoff : off + 256 ≤ 512) (W : Arr 256 512)
    (b : Arr 1 512) (r : Fin 4096) (c : Fin 512) :
    propEnc A xs off hoff W b (ix2 r c)
      = (∑ d : Fin 256, (∑ k : Fin 4096, A (ix2 r k) * xs (ix2 k ⟨off + d.val, by have := d.isLt; omega⟩)) * W (ix2 d c))
        + b (ix2 0 c) := rfl

theorem spmmOut_apply (A : Arr 4096 4096) (h : Arr 4096 1024) (bb : Arr 1 1024) (r : Fin 4096) (c : Fin 1024) :
    spmmOut A h bb (ix2 r c)
      = (bb (ix2 0 c) + ∑ k : Fin 2048, A (ix2 r ⟨k.val, by have := k.isLt; omega⟩) * h (ix2 ⟨k.val, by have := k.isLt; omega⟩ c))
        + ∑ k : Fin 2048, A (ix2 r ⟨2048 + k.val, by have := k.isLt; omega⟩)
            * h (ix2 ⟨2048 + k.val, by have := k.isLt; omega⟩ c) := rfl

theorem featOut_apply (xall : Arr 8192 256) (w : Arr 256 512) (r : Fin 4096) (c : Fin 1024) :
    featOut xall w (ix2 r c)
      = ∑ d : Fin 256, xall (ix2 ⟨4096 * (c.val / 512) + r.val, by have := r.isLt; have := c.isLt; omega⟩ d)
          * w (ix2 d ⟨c.val % 512, Nat.mod_lt _ (by decide)⟩) := rfl

/-- The left 256 columns of `[x | xc]` are `x`. -/
theorem sideBySide_left (x xc : Arr 4096 256) (k : Fin 4096) (d : Fin 256) (h : 0 + d.val < 512) :
    sideBySide x xc (ix2 k ⟨0 + d.val, h⟩) = x (ix2 k d) := by
  have hd := d.isLt
  have h1 : 0 + d.val < 256 := by omega
  have e : (⟨0 + d.val, h1⟩ : Fin 256) = d := Fin.ext (Nat.zero_add _)
  unfold sideBySide
  exact (dif_pos h1).trans (by rw [e])

/-- The right 256 columns of `[x | xc]` are `xc`. -/
theorem sideBySide_right (x xc : Arr 4096 256) (k : Fin 4096) (d : Fin 256) (h : 256 + d.val < 512) :
    sideBySide x xc (ix2 k ⟨256 + d.val, h⟩) = xc (ix2 k d) := by
  have hd := d.isLt
  have h1 : ¬ 256 + d.val < 256 := by omega
  have e : (⟨256 + d.val - 256, by omega⟩ : Fin 256) = d := Fin.ext (by show 256 + d.val - 256 = d.val; omega)
  unfold sideBySide
  exact (dif_neg h1).trans (by rw [e])

/-- The upper 4096 rows of the stack are `x`. -/
theorem stack_upper (x xc : Arr 4096 256) (i : Fin 8192) (r : Fin 4096) (d : Fin 256) (hi : i.val = r.val) :
    stack x xc (ix2 i d) = x (ix2 r d) := by
  have hr := r.isLt
  have h1 : i.val < 4096 := by omega
  have e : (⟨i.val, h1⟩ : Fin 4096) = r := Fin.ext hi
  unfold stack
  exact (dif_pos h1).trans (by rw [e])

/-- The lower 4096 rows of the stack are `xc`. -/
theorem stack_lower (x xc : Arr 4096 256) (i : Fin 8192) (r : Fin 4096) (d : Fin 256) (hi : i.val = 4096 + r.val) :
    stack x xc (ix2 i d) = xc (ix2 r d) := by
  have hr := r.isLt
  have h1 : ¬ i.val < 4096 := by omega
  have e : (⟨i.val - 4096, by have := i.isLt; omega⟩ : Fin 4096) = r := Fin.ext (by show i.val - 4096 = r.val; omega)
  unfold stack
  exact (dif_neg h1).trans (by rw [e])

/-- Both halves of `[b | b]` are `b`. -/
theorem twice_left (b : Arr 1 512) (c : Fin 512) (h : c.val < 1024) : twice b (ix2 0 ⟨c.val, h⟩) = b (ix2 0 c) := by
  unfold twice
  exact dif_pos c.isLt

theorem twice_right (b : Arr 1 512) (c : Fin 512) (h : 512 + c.val < 1024) :
    twice b (ix2 0 ⟨512 + c.val, h⟩) = b (ix2 0 c) := by
  have hc := c.isLt
  have h1 : ¬ 512 + c.val < 512 := by omega
  have e : (⟨512 + c.val - 512, by omega⟩ : Fin 512) = c := Fin.ext (by show 512 + c.val - 512 = c.val; omega)
  unfold twice
  exact (dif_neg h1).trans (by rw [e])

/-- The left 512 columns of the encoded features are `x · W`. -/
theorem featOut_left (x xc : Arr 4096 256) (W : Arr 256 512) (r : Fin 4096) (c : Fin 512) (h : c.val < 1024) :
    featOut (stack x xc) W (ix2 r ⟨c.val, h⟩) = ∑ d : Fin 256, x (ix2 r d) * W (ix2 d c) := by
  have hc := c.isLt
  rw [featOut_apply]
  refine Finset.sum_congr rfl fun d _ => ?_
  have e : (⟨c.val % 512, Nat.mod_lt _ (by decide)⟩ : Fin 512) = c := Fin.ext (by show c.val % 512 = c.val; omega)
  rw [stack_upper x xc _ r d (by show 4096 * (c.val / 512) + r.val = r.val; omega)]
  exact congrArg (fun t => x (ix2 r d) * W (ix2 d t)) e

/-- The right 512 columns of the encoded features are `xc · W`. -/
theorem featOut_right (x xc : Arr 4096 256) (W : Arr 256 512) (r : Fin 4096) (c : Fin 512) (h : 512 + c.val < 1024) :
    featOut (stack x xc) W (ix2 r ⟨512 + c.val, h⟩) = ∑ d : Fin 256, xc (ix2 r d) * W (ix2 d c) := by
  have hc := c.isLt
  rw [featOut_apply]
  refine Finset.sum_congr rfl fun d _ => ?_
  have e : (⟨(512 + c.val) % 512, Nat.mod_lt _ (by decide)⟩ : Fin 512) = c :=
    Fin.ext (by show (512 + c.val) % 512 = c.val; omega)
  rw [stack_lower x xc _ r d (by show 4096 * ((512 + c.val) / 512) + r.val = 4096 + r.val; omega)]
  exact congrArg (fun t => xc (ix2 r d) * W (ix2 d t)) e

/-! ## The two arrangements agree -/

/-- The clean half: propagate-then-encode of `x` is the left half of the encode-then-propagate array. -/
theorem z_eq {A : Arr 4096 4096} {x xc : Arr 4096 256} {W : Arr 256 512} {b : Arr 1 512}
    (hA : IsReal A) (hx : IsReal x) (hxc : IsReal xc) (hW : IsReal W) (hb : IsReal b) (h0 : 0 + 256 ≤ 512) :
    propEnc A (sideBySide x xc) 0 h0 W b = leftHalf (spmmOut A (featOut (stack x xc) W) (twice b)) := by
  funext j
  obtain ⟨r, c, rfl⟩ : ∃ (r : Fin 4096) (c : Fin 512), j = ix2 r c := ⟨j 0, j 1, eq_ix2 j⟩
  show propEnc A (sideBySide x xc) 0 h0 W b (ix2 r c)
    = spmmOut A (featOut (stack x xc) W) (twice b) (ix2 r ⟨c.val, by have := c.isLt; omega⟩)
  rw [propEnc_apply, spmmOut_apply]
  simp only [sideBySide_left, twice_left, featOut_left]
  exact triple 2048 2048 rfl (fun k => A (ix2 r k)) (fun k d => x (ix2 k d)) (fun d => W (ix2 d c)) (b (ix2 0 c))
    (fun k => hA _) (fun k d => hx _) (fun d => hW _) (hb _)

/-- The corrupted half: propagate-then-encode of `xc` is the right half of the encode-then-propagate array. -/
theorem zn_eq {A : Arr 4096 4096} {x xc : Arr 4096 256} {W : Arr 256 512} {b : Arr 1 512}
    (hA : IsReal A) (hx : IsReal x) (hxc : IsReal xc) (hW : IsReal W) (hb : IsReal b) (h256 : 256 + 256 ≤ 512) :
    propEnc A (sideBySide x xc) 256 h256 W b = rightHalf (spmmOut A (featOut (stack x xc) W) (twice b)) := by
  funext j
  obtain ⟨r, c, rfl⟩ : ∃ (r : Fin 4096) (c : Fin 512), j = ix2 r c := ⟨j 0, j 1, eq_ix2 j⟩
  show propEnc A (sideBySide x xc) 256 h256 W b (ix2 r c)
    = spmmOut A (featOut (stack x xc) W) (twice b) (ix2 r ⟨512 + c.val, by have := c.isLt; omega⟩)
  rw [propEnc_apply, spmmOut_apply]
  simp only [sideBySide_right, twice_right, featOut_right]
  exact triple 2048 2048 rfl (fun k => A (ix2 r k)) (fun k d => xc (ix2 k d)) (fun d => W (ix2 d c)) (b (ix2 0 c))
    (fun k => hA _) (fun k d => hxc _) (fun d => hW _) (hb _)

/-! ## Column sums regrouped

Both readouts add up, eight times over, the whole column of 4096 entries: one as four bands of 1024 rows accumulated
from zero and copied on eight sublanes, the other as eight tiles of 512 rows each repeated on eight rows. -/

/-- Entry `r` of block `t`, blocks of length `n`, lies below `m · n`. -/
theorem blk_lt {m n t r : ℕ} (ht : t < m) (hr : r < n) : n * t + r < m * n :=
  calc n * t + r < n * t + n := Nat.add_lt_add_left hr _
    _ = n * (t + 1) := (Nat.mul_succ n t).symm
    _ ≤ n * m := Nat.mul_le_mul_left _ ht
    _ = m * n := Nat.mul_comm _ _

/-- A sum over `Fin N` with `N = m · n` is the sum over `m` consecutive blocks of length `n`. -/
theorem sum_blocks {M : Type*} [AddCommMonoid M] (m n N : ℕ) (hN : m * n = N) (f : Fin N → M) :
    ∑ i : Fin N, f i
      = ∑ t : Fin m, ∑ r : Fin n, f ⟨n * t.val + r.val, by rw [← hN]; exact blk_lt t.isLt r.isLt⟩ := by
  subst hN
  rw [← Equiv.sum_comp finProdFinEquiv f, Fintype.sum_prod_type]
  refine Finset.sum_congr rfl fun t _ => Finset.sum_congr rfl fun r _ => ?_
  exact congrArg f (Fin.ext (Nat.add_comm _ _))

/-- Eight tiles of 512 entries, each counted on the eight rows `q` with `q / 8` the tile, are eight copies of the
    whole sum. -/
theorem sum_tiles {M : Type*} [AddCommMonoid M] (f : Fin 4096 → M)
    (hq : ∀ (q : Fin 64) (r : Fin 512), 512 * (q.val / 8) + r.val < 4096) :
    ∑ q : Fin 64, ∑ r : Fin 512, f ⟨512 * (q.val / 8) + r.val, hq q r⟩ = 8 • ∑ i : Fin 4096, f i := by
  rw [sum_blocks 8 8 64 rfl (fun q => ∑ r : Fin 512, f ⟨512 * (q.val / 8) + r.val, hq q r⟩),
    sum_blocks 8 512 4096 rfl f, Finset.smul_sum]
  refine Finset.sum_congr rfl fun t _ => ?_
  have ht := t.isLt
  have e : ∀ s : Fin 8,
      (∑ r : Fin 512, f ⟨512 * ((8 * t.val + s.val) / 8) + r.val,
          hq ⟨8 * t.val + s.val, by have := s.isLt; omega⟩ r⟩)
        = ∑ r : Fin 512, f ⟨512 * t.val + r.val, by have := r.isLt; omega⟩ := fun s =>
    Finset.sum_congr rfl fun r _ => congrArg f (Fin.ext (by
      show 512 * ((8 * t.val + s.val) / 8) + r.val = 512 * t.val + r.val
      have := s.isLt
      omega))
  exact (Finset.sum_congr rfl fun s _ => e s).trans (by rw [Finset.sum_const, Finset.card_univ, Fintype.card_fin])

/-- The accumulator after the four bands is the whole column sum. -/
theorem bandAcc_eq (z : Arr 4096 512) (h : Fin 512) : bandAcc z h = ∑ i : Fin 4096, z (ix2 i h) := by
  unfold bandAcc
  rw [zero_add, sum_blocks 4 1024 4096 rfl (fun i => z (ix2 i h)), Fin.sum_univ_four]
  rfl

/-- The eight sublanes of the accumulator and the 64 rows of the per-tile sums add up to the same thing. -/
theorem readout_sums (zall : Arr 4096 1024) (h : Fin 512) :
    ∑ _s : Fin 8, bandAcc (leftHalf zall) h = ∑ q : Fin 64, partOut zall (ix2 q h) := by
  rw [Finset.sum_const, Finset.card_univ, Fintype.card_fin, bandAcc_eq]
  exact (sum_tiles (fun i => zall (ix2 i ⟨h.val, by have := h.isLt; omega⟩))
    (fun q r => by have := q.isLt; have := r.isLt; omega)).symm

/-- The two summary readouts of one encode-then-propagate array agree: the bias is added first or last, the projection
    weights are read directly or through their transpose, and the column sums are grouped in two ways. -/
theorem readout_eq (zall : Arr 4096 1024) (wp : Arr 512 512) (bp : Arr 1 512) :
    bandReadout (leftHalf zall) wp bp = projOut (partOut zall) (transposed wp) bp := by
  funext j
  show bp (ix2 0 (j 1))
      + ∑ h : Fin 512, Ideal.logistic ((∑ _s : Fin 8, bandAcc (leftHalf zall) h) * scale) * wp (ix2 (j 1) h)
    = (∑ h : Fin 512, Ideal.logistic ((∑ q : Fin 64, partOut zall (ix2 q h)) * scale) * wp (ix2 (j 1) h))
      + bp (ix2 0 (j 1))
  rw [add_comm]
  congr 1
  refine Finset.sum_congr rfl fun h _ => ?_
  rw [readout_sums]

/-- The summary: the band-by-band readout of the propagate-then-encode array is the projection of the per-tile sums
    of the encode-then-propagate array. -/
theorem g_eq {A : Arr 4096 4096} {x xc : Arr 4096 256} {W : Arr 256 512} {b : Arr 1 512}
    (hA : IsReal A) (hx : IsReal x) (hxc : IsReal xc) (hW : IsReal W) (hb : IsReal b) (h0 : 0 + 256 ≤ 512)
    (wp : Arr 512 512) (bp : Arr 1 512) :
    bandReadout (propEnc A (sideBySide x xc) 0 h0 W b) wp bp
      = projOut (partOut (spmmOut A (featOut (stack x xc) W) (twice b))) (transposed wp) bp := by
  rw [z_eq hA hx hxc hW hb h0]
  exact readout_eq _ wp bp

end Dgi

end
-- ==== Proof.FiniteArgs.lean ====
/-
  From the finiteness predicate on the seven argument arrays to "every entry is a real number".

  The predicate is the conjunction, over the arrays, of "every entry's absolute value is below +∞".  Read at the
  extended reals the absolute value of `x` is `max x (-x)`, and the bound is the word of +∞ itself, so an entry
  that passes is neither infinity: it is the coercion of a real.
-/
import proofs.«127692_g2000106255353042_pallasbulk_995_18_alg».proof.Pre_finite_inputs
import proofs.«127692_g2000106255353042_pallasbulk_995_18_alg».proof.Proof.DgiSpec
import Idealize.ShloMosaic.Lib.ReduceAll

noncomputable section

namespace Dgi

open Idealize.ShloMosaic Idealize.ShloMosaic.ValueIdx
open Cert.Pre_finite_inputs

/-- The scalar shape has one index. -/
instance : Subsingleton S_.Idx := ⟨fun a b => funext fun d => d.elim0⟩

/-- The word `0x7F800000` denotes +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [inf_word] at h
  have h1 : max x (-x) < ⊤ := by
    by_contra hn
    simp [Ideal.cmp, hn] at h
  induction x using EReal.rec with
  | bot => simp at h1
  | coe r => exact ⟨r, rfl⟩
  | top => simp at h1

/-- One conjunct of the predicate, "all entries of `|a|` are below +∞", makes every entry of `a` real. -/
theorem real_of_all {s : Shape} {axes : List (Fin s.rank)} (a : s.Idx → EReal)
    (hb : S_.BroadcastsInDim s (![] : Fin 0 → Fin s.rank)) (hr : s.ReducesTo axes S_) (hu : 0 < S_.numel)
    (e : Host.reduce IntOp.andi
          (cmpf (F := Ideal) (φ := .f32) .olt (Host.absf (F := Ideal) (φ := .f32) a)
            (broadcastInDim s ![] hb (constant (F := Ideal) S_ .f32 0x7F800000#32)))
          (constantI S_ 1 1#1) hr hu ix0 = 1#1) (i : s.Idx) :
    ∃ r : ℝ, a i = (r : EReal) :=
  real_of_abs_lt (a i) (Host.reduce_andi_all _ _ hr hu ix0 e i)

/-- Under the finiteness predicate every entry of every argument array is a real number. -/
theorem args_real (a0 a1 : FVec Ideal ⟨2, ![4096, 256]⟩ .f32) (a2 : FVec Ideal ⟨2, ![4096, 4096]⟩ .bf16)
    (a3 : FVec Ideal ⟨2, ![256, 512]⟩ .f32) (a4 : FVec Ideal ⟨2, ![1, 512]⟩ .f32)
    (a5 : FVec Ideal ⟨2, ![512, 512]⟩ .f32) (a6 : FVec Ideal ⟨2, ![1, 512]⟩ .f32)
    [Cert.Pre_finite_inputs.Facts]
    (h : Cert.Pre_finite_inputs.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h0 := congrFun h ix0
  dsimp only [fn, fn_part1, fn_part2] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_all a0 _ _ _ e0 i, fun i => real_of_all a1 _ _ _ e1 i,
    fun i => real_of_all a2 _ _ _ e2 i, fun i => real_of_all a3 _ _ _ e3 i,
    fun i => real_of_all a4 _ _ _ e4 i, fun i => real_of_all a5 _ _ _ e5 i,
    fun i => real_of_all a6 _ _ _ e6 i⟩

end Dgi

end
-- ==== Proof.Bridge.lean ====
/-
  The two programs compute the same three arrays.

  One propagates the features through the adjacency first and encodes second, band by band; the other encodes first and
  propagates in tiles. Over real inputs the triple product may be bracketed either way, the contraction over the 4096 nodes
  may be cut in two halves, and the bias may come first or last: so the clean and corrupted encodings agree entry by entry.
  The summary depends on the clean encoding only through its column sums, which both programs replicate on eight sublanes
  and scale by the same 2⁻¹⁵ before the same logistic; the projection contracts the same pairs of entries, with the bias
  added on the other side.
-/
import proofs.«127692_g2000106255353042_pallasbulk_995_18_alg».proof.Defs
import proofs.«127692_g2000106255353042_pallasbulk_995_18_alg».proof.Proof.Gen.Pre_finite_inputs
import proofs.«127692_g2000106255353042_pallasbulk_995_18_alg».proof.Proof.Gen.Kernel.Frame
import proofs.«127692_g2000106255353042_pallasbulk_995_18_alg».proof.Proof.Gen.KernelIdeal.Frame
import proofs.«127692_g2000106255353042_pallasbulk_995_18_alg».proof.Proof.Gen.ReferenceIdeal.Frame
import proofs.«127692_g2000106255353042_pallasbulk_995_18_alg».proof.Proof.KernelFinal
import proofs.«127692_g2000106255353042_pallasbulk_995_18_alg».proof.Proof.RefRun
import proofs.«127692_g2000106255353042_pallasbulk_995_18_alg».proof.Proof.RefFeat
import proofs.«127692_g2000106255353042_pallasbulk_995_18_alg».proof.Proof.RefSpmm
import proofs.«127692_g2000106255353042_pallasbulk_995_18_alg».proof.Proof.RefProj
import proofs.«127692_g2000106255353042_pallasbulk_995_18_alg».proof.Proof.DgiLaws
import proofs.«127692_g2000106255353042_pallasbulk_995_18_alg».proof.Proof.FiniteArgs

noncomputable section

open Idealize.ShloMosaic Idealize.ShloMosaic.TcCoe Idealize.SL.Sem

namespace Cert.Proof.Dgi

/-! ## The reference's three results as functions of its launch memory -/

section Reference

open Cert.ReferenceIdeal Cert.ReferenceIdeal.Gen

variable (m : (ℓ : Loc nD τ sig) → Buf (Elt Ideal) ℓ) (ρ : Dev nD → PrngReg) (c : Dev nD)

/-- The propagated encoding, as the reference arranges it. -/
abbrev zall : Dgi.Arr 4096 1024 :=
  Dgi.spmmOut (m ((c.tc : Thread nD τ).loc main_arg2))
    (Dgi.featOut (Dgi.stack (m ((c.tc : Thread nD τ).loc main_arg0)) (m ((c.tc : Thread nD τ).loc main_arg1))) (m ((c.tc : Thread nD τ).loc main_arg3)))
    (Dgi.twice (m ((c.tc : Thread nD τ).loc main_arg4)))

theorem spmm_at : (Gen.dat1 (Gen.V13 (F := Ideal) m ρ) c).arrAt 3 cfg1.N = zall m c := by
  rw [Cert.ReferenceIdeal.Spmm.final3, RefRun.in1_A, RefRun.in1_h, RefRun.in1_b, Cert.ReferenceIdeal.Feat.final2, RefRun.in0_x, RefRun.in0_w]

theorem ref_clean : Gen.W16 (F := Ideal) m ρ c (Proc.devRef .tc main_v15) = Dgi.leftHalf (zall m c) := by
  rw [RefRun.res_v15, spmm_at]

theorem ref_corrupt : Gen.W16 (F := Ideal) m ρ c (Proc.devRef .tc main_v16) = Dgi.rightHalf (zall m c) := by
  rw [RefRun.res_v16, spmm_at]

theorem ref_summary : Gen.W16 (F := Ideal) m ρ c (Proc.devRef .tc main_v14)
    = Dgi.projOut (Dgi.partOut (zall m c)) (Dgi.transposed (m ((c.tc : Thread nD τ).loc main_arg5))) (m ((c.tc : Thread nD τ).loc main_arg6)) := by
  rw [RefRun.res_v14, Cert.ReferenceIdeal.Proj.final3, RefRun.in2_p, RefRun.in2_w, RefRun.in2_b, Cert.ReferenceIdeal.Spmm.final4, RefRun.in1_A, RefRun.in1_h, RefRun.in1_b, Cert.ReferenceIdeal.Feat.final2, RefRun.in0_x, RefRun.in0_w]

end Reference

/-! ## The claims -/

section Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- Nothing was rewritten between the kernel and its reading over the extended reals. -/
theorem preserves : Cert.preserves_Kernel_KernelIdeal := trivial

/-- From memories that agree on the seven arguments, all of them real, both programs end with the same clean encoding,
    the same summary and the same corrupted encoding. -/
theorem algebraic : Cert.algebraic_KernelIdeal_ReferenceIdeal := by
  intro m ρ m' ρ' hpre hagree
  refine ⟨_, _, _, Cert.KernelIdeal.Bands.run m ρ, ?_⟩
  refine (θ_run Cert.ReferenceIdeal.defs _ _).mono (fun r h c => ?_) (Cert.ReferenceIdeal.RefRun.run (F := Ideal) m' ρ')
  obtain ⟨h15, h14, h16, hargs⟩ := h c
  obtain ⟨a0, a1, a2, a3, a4, a5, a6⟩ := hagree c
  obtain ⟨r0, r1, r2, r3, r4, r5, r6⟩ := Dgi.args_real _ _ _ _ _ _ _ (hpre c)
  refine ⟨h15.trans ?_, h14.trans ?_, h16.trans ?_, hargs⟩
  · rw [ref_clean m' ρ' c]
    unfold zall
    rw [a0, a1, a2, a3, a4]
    exact (Dgi.z_eq r2 r0 r1 r3 r4 _).symm
  · rw [ref_summary m' ρ' c]
    unfold zall
    rw [a0, a1, a2, a3, a4, a5, a6]
    exact (Dgi.g_eq r2 r0 r1 r3 r4 _ _ _).symm
  · rw [ref_corrupt m' ρ' c]
    unfold zall
    rw [a0, a1, a2, a3, a4]
    exact (Dgi.zn_eq r2 r0 r1 r3 r4 _).symm

end Claims

end Cert.Proof.Dgi

end
-- ==== Proof.lean ====
/-
  The certificate of the Deep-Graph-Infomax forward pass: a one-call band kernel against a three-call tiled reference.
  The three frames are the generated ones; nothing was rewritten between the kernel and its reading over the extended
  reals; and over real inputs the two programs end with equal encodings and equal summaries (Proof/Bridge.lean).
-/
import proofs.«127692_g2000106255353042_pallasbulk_995_18_alg».proof.Defs
import proofs.«127692_g2000106255353042_pallasbulk_995_18_alg».proof.Proof.Gen.Kernel
import proofs.«127692_g2000106255353042_pallasbulk_995_18_alg».proof.Proof.Gen.KernelIdeal
import proofs.«127692_g2000106255353042_pallasbulk_995_18_alg».proof.Proof.Gen.KernelIdeal.Value
import proofs.«127692_g2000106255353042_pallasbulk_995_18_alg».proof.Proof.Gen.ReferenceIdeal
import proofs.«127692_g2000106255353042_pallasbulk_995_18_alg».proof.Proof.Gen.Pre_finite_inputs
import proofs.«127692_g2000106255353042_pallasbulk_995_18_alg».proof.Proof.Bridge
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Dgi.frame_k, Dgi.frame_ki, Dgi.frame_ri, Dgi.preserves, Dgi.algebraic⟩

end Cert.Proof

end
